-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S128x512 : Shape := ⟨2, ![128, 512]⟩
abbrev S128 : Shape := ⟨1, ![128]⟩
abbrev S128x128 : Shape := ⟨2, ![128, 128]⟩
abbrev S2x10000 : Shape := ⟨2, ![2, 10000]⟩
abbrev S2x320000 : Shape := ⟨2, ![2, 320000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x10000 : S_.BroadcastsInDim S2x10000 (![] : Fin 0 → Fin S2x10000.rank)
  reducesTo_S2x10000_S_d0_1 : S2x10000.ReducesTo [0, 1] S_

variable [Facts]

def fn_part1 {F : FTy → Type} [FloatOps F] (main_arg4 : FVec F S128x128 .f32) (main_arg5 : FVec F S128 .f32) (main_arg6 : FVec F S2x10000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x10000 .f32 := Host.absf main_arg6
  let main_cst_10 : FVec F S_ .f32 := constant S_ .f32 0x7F800000#32
  let main_v30 : FVec F S2x10000 .f32 := broadcastInDim S2x10000 ![] bcast_S_S2x10000 main_cst_10
  let main_v31 : IVec S2x10000 1 := cmpf .olt main_v29 main_v30
  let main_c_11 : IVec S_ 1 := constantI S_ 1 1#1
  let main_v32 : IVec S_ 1 := (fun x v => Host.reduce IntOp.andi x v reducesTo_S2x10000_S_d0_1 h_S_) main_v31 main_c_11
  let main_v33 : IVec S_ 1 := andi main_v28 main_v32
  main_v33

def fn {F : FTy → Type} [FloatOps F] (main_arg0 : FVec F S10000x512 .f32) (main_arg1 : FVec F S10000x10000 .f32) (main_arg2 : FVec F S128x512 .f32) (main_arg3 : FVec F S128 .f32) (main_arg4 : FVec F S128x128 .f32) (main_arg5 : FVec F S128 .f32) (main_arg6 : FVec F S2x10000 .f32) (main_arg7 : IVec S2x320000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S10000x512 : Shape := ⟨2, ![10000, 512]⟩
abbrev S10000x10000 : Shape := ⟨2, ![10000, 10000]⟩
abbrev S128x512 : Shape := ⟨2, ![128, 512]⟩
abbrev S128 : Shape := ⟨1, ![128]⟩
abbrev S128x128 : Shape := ⟨2, ![128, 128]⟩
abbrev S2x10000 : Shape := ⟨2, ![2, 10000]⟩
abbrev S2x320000 : Shape := ⟨2, ![2, 320000]⟩
abbrev S1x128 : Shape := ⟨2, ![1, 128]⟩
abbrev S10000x128 : Shape := ⟨2, ![10000, 128]⟩
abbrev S2000x512 : Shape := ⟨2, ![2000, 512]⟩
abbrev S2000x128 : Shape := ⟨2, ![2000, 128]⟩
abbrev S512x128 : Shape := ⟨2, ![512, 128]⟩
abbrev S2000 : Shape := ⟨1, ![2000]⟩
abbrev S2000x1 : Shape := ⟨2, ![2000, 1]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x128 : Shape := ⟨2, ![330000, 128]⟩
abbrev S128x10000 : Shape := ⟨2, ![128, 10000]⟩
abbrev S1 : Shape := ⟨1, ![1]⟩
abbrev S200x10000 : Shape := ⟨2, ![200, 10000]⟩
abbrev S200x128 : Shape := ⟨2, ![200, 128]⟩
abbrev S200 : Shape := ⟨1, ![200]⟩
abbrev S200x1 : Shape := ⟨2, ![200, 1]⟩
abbrev S10000x2 : Shape := ⟨2, ![10000, 2]⟩
abbrev S320000x1 : Shape := ⟨2, ![320000, 1]⟩
abbrev S320000x128 : Shape := ⟨2, ![320000, 128]⟩
abbrev S320000x2 : Shape := ⟨2, ![320000, 2]⟩

abbrev nBuf : Space → Nat
  | .hbm => 154
  | .vmem => 12
  | .smem => 0
  | _ => 0

abbrev hbmTy0_0 (i : Nat) : BufTy := match i % 128 with
  | 0 => ⟨S10000x512, .f32⟩
  | 1 => ⟨S10000x10000, .f32⟩
  | 2 => ⟨S128x512, .f32⟩
  | 3 => ⟨S128, .f32⟩
  | 4 => ⟨S128x128, .f32⟩
  | 5 => ⟨S128, .f32⟩
  | 6 => ⟨S2x10000, .f32⟩
  | 7 => ⟨S2x320000, .i32⟩
  | 8 => ⟨S1x128, .f32⟩
  | 9 => ⟨S10000x128, .f32⟩
  | 10 => ⟨S10000, .i32⟩
  | 11 => ⟨S1x320000, .i32⟩
  | 12 => ⟨S320000, .i32⟩
  | 13 => ⟨S330000, .i32⟩
  | 14 => ⟨S1x320000, .i32⟩
  | 15 => ⟨S320000, .i32⟩
  | 16 => ⟨S330000, .i32⟩
  | 17 => ⟨S_, .f32⟩
  | 18 => ⟨S330000, .f32⟩
  | 19 => ⟨S_, .f32⟩
  | 20 => ⟨S10000, .f32⟩
  | 21 => ⟨S330000x1, .i32⟩
  | 22 => ⟨S10000, .f32⟩
  | 23 => ⟨S_, .f32⟩
  | 24 => ⟨S10000, .f32⟩
  | 25 => ⟨S10000, .i1⟩
  | 26 => ⟨S10000, .f32⟩
  | 27 => ⟨S_, .f32⟩
  | 28 => ⟨S_, .f32⟩
  | 29 => ⟨S10000, .f32⟩
  | 30 => ⟨S10000, .f32⟩
  | 31 => ⟨S_, .i32⟩
  | 32 => ⟨S330000, .i32⟩
  | 33 => ⟨S330000, .i1⟩
  | 34 => ⟨S_, .i32⟩
  | 35 => ⟨S330000, .i32⟩
  | 36 => ⟨S330000, .i32⟩
  | 37 => ⟨S330000, .i32⟩
  | 38 => ⟨S330000x1, .i32⟩
  | 39 => ⟨S330000, .f32⟩
  | 40 => ⟨S_, .i32⟩
  | 41 => ⟨S330000, .i32⟩
  | 42 => ⟨S330000, .i1⟩
  | 43 => ⟨S_, .i32⟩
  | 44 => ⟨S330000, .i32⟩
  | 45 => ⟨S330000, .i32⟩
  | 46 => ⟨S330000, .i32⟩
  | 47 => ⟨S330000x1, .i32⟩
  | 48 => ⟨S330000, .f32⟩
  | 49 => ⟨S330000, .f32⟩
  | 50 => ⟨S_, .i32⟩
  | 51 => ⟨S330000, .i32⟩
  | 52 => ⟨S330000, .i1⟩
  | 53 => ⟨S_, .i32⟩
  | 54 => ⟨S330000, .i32⟩
  | 55 => ⟨S330000, .i32⟩
  | 56 => ⟨S330000, .i32⟩
  | 57 => ⟨S330000x1, .i32⟩
  | 58 => ⟨S330000x128, .f32⟩
  | 59 => ⟨S330000x1, .f32⟩
  | 60 => ⟨S330000x128, .f32⟩
  | 61 => ⟨S330000x128, .f32⟩
  | 62 => ⟨S_, .f32⟩
  | 63 => ⟨S10000x128, .f32⟩
  | 64 => ⟨S330000x1, .i32⟩
  | 65 => ⟨S10000x128, .f32⟩
  | 66 => ⟨S1x128, .f32⟩
  | 67 => ⟨S10000x128, .f32⟩
  | 68 => ⟨S10000x128, .f32⟩
  | 69 => ⟨S_, .f32⟩
  | 70 => ⟨S128x10000, .f32⟩
  | 71 => ⟨S_, .i32⟩
  | 72 => ⟨S1, .i32⟩
  | 73 => ⟨S128x10000, .f32⟩
  | 74 => ⟨S10000x128, .f32⟩
  | 75 => ⟨S10000x128, .bf16⟩
  | 76 => ⟨S10000x128, .f32⟩
  | 77 => ⟨S10000x2, .f32⟩
  | 78 => ⟨S1x320000, .i32⟩
  | 79 => ⟨S320000, .i32⟩
  | 80 => ⟨S1x320000, .i32⟩
  | 81 => ⟨S320000, .i32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S320000x128, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S320000x128, .f32⟩
  | 100 => ⟨S320000x128, .f32⟩
  | 101 => ⟨S_, .f32⟩
  | 102 => ⟨S320000, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S_, .i32⟩
  | 111 => ⟨S320000, .i32⟩
  | 112 => ⟨S320000, .i32⟩
  | 113 => ⟨S320000x1, .i32⟩
  | 114 => ⟨S320000x1, .i32⟩
  | 115 => ⟨S320000x2, .i32⟩
  | 116 => ⟨S320000, .f32⟩
  | 117 => ⟨S_, .i32⟩
  | 118 => ⟨S320000, .i32⟩
  | 119 => ⟨S320000, .i1⟩
  | 120 => ⟨S_, .i32⟩
  | 121 => ⟨S320000, .i32⟩
  | 122 => ⟨S320000, .i32⟩
  | 123 => ⟨S320000, .i32⟩
  | 124 => ⟨S_, .i32⟩
  | 125 => ⟨S320000, .i32⟩
  | 126 => ⟨S320000, .i32⟩
  | 127 => ⟨S320000x1, .i32⟩
  | _ => ⟨S10000x512, .f32⟩

abbrev hbmTy0_1 (i : Nat) : BufTy := match i % 128 with
  | 0 => ⟨S320000x1, .i32⟩
  | 1 => ⟨S320000x2, .i32⟩
  | 2 => ⟨S320000, .f32⟩
  | 3 => ⟨S320000, .f32⟩
  | 4 => ⟨S320000, .f32⟩
  | 5 => ⟨S320000, .f32⟩
  | 6 => ⟨S_, .f32⟩
  | 7 => ⟨S320000, .f32⟩
  | 8 => ⟨S320000, .f32⟩
  | 9 => ⟨S_, .f32⟩
  | 10 => ⟨S320000, .f32⟩
  | 11 => ⟨S320000, .f32⟩
  | 12 => ⟨S320000, .f32⟩
  | 13 => ⟨S_, .f32⟩
  | 14 => ⟨S320000, .f32⟩
  | 15 => ⟨S320000, .f32⟩
  | 16 => ⟨S320000, .f32⟩
  | 17 => ⟨S320000, .f32⟩
  | 18 => ⟨S_, .f32⟩
  | 19 => ⟨S320000, .f32⟩
  | 20 => ⟨S320000, .f32⟩
  | 21 => ⟨S_, .f32⟩
  | 22 => ⟨S320000, .f32⟩
  | 23 => ⟨S320000, .f32⟩
  | 24 => ⟨S320000, .f32⟩
  | 25 => ⟨S320000, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S128x512, .f32⟩
  | .local _ .vmem, ⟨3, _⟩ => ⟨S1x128, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S200x10000, .f32⟩
  | .local _ .vmem, ⟨8, _⟩ => ⟨S200x10000, .f32⟩
  | .local _ .vmem, ⟨9, _⟩ => ⟨S10000x128, .bf16⟩
  | .local _ .vmem, ⟨10, _⟩ => ⟨S200x128, .f32⟩
  | .local _ .vmem, ⟨11, _⟩ => ⟨S200x128, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_19 : Ref sig .tc := ⟨.hbm, 117, rfl⟩
abbrev main_v86 : Ref sig .tc := ⟨.hbm, 118, rfl⟩
abbrev main_v87 : Ref sig .tc := ⟨.hbm, 119, rfl⟩
abbrev main_c_20 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_21 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_22 : Ref sig .tc := ⟨.hbm, 134, rfl⟩
abbrev main_v100 : Ref sig .tc := ⟨.hbm, 135, rfl⟩
abbrev main_v101 : Ref sig .tc := ⟨.hbm, 136, rfl⟩
abbrev main_cst_23 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_24 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_25 : Ref sig .tc := ⟨.hbm, 146, rfl⟩
abbrev main_v109 : Ref sig .tc := ⟨.hbm, 147, rfl⟩
abbrev main_v110 : Ref sig .tc := ⟨.hbm, 148, rfl⟩
abbrev main_cst_26 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x512_p1_0_S512x128 : S128x512.Transposes [1, 0] S512x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S2000x128_S2000x128_0_0 : ∀ a, (![0, 0] : Fin 2 → Nat) a + S2000x128.size a ≤ S2000x128.size a
  h_S2000x128 : 0 < S2000x128.numel
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S128x10000 : S_.BroadcastsInDim S128x10000 (![] : Fin 0 → Fin S128x10000.rank)
  bcast_S_S1 : S_.BroadcastsInDim S1 (![] : Fin 0 → Fin S1.rank)
  transposes_S128x10000_S10000x128_1_0 : S128x10000.Transposes [1, 0] S10000x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S200x128_S200 : S200x128.Reduces [1] S200
  shapeCasts_S200_S200x1 : S200.ShapeCasts S200x1
  broadcasts_S200x1_S200x128 : S200x1.Broadcasts S200x128
  inb_S200x128_S200x128_0_0 : ∀ a, (![0, 0] : Fin 2 → Nat) a + S200x128.size a ≤ S200x128.size a
  h_S200x128 : 0 < S200x128.numel
  slices_S10000x128_S10000x2_0_0 : S10000x128.Slices ![0, 0] S10000x2
  bcast_S_S320000 : S_.BroadcastsInDim S320000 (![] : Fin 0 → Fin S320000.rank)
  bcast_S320000_S320000x1_0 : S320000.BroadcastsInDim S320000x1 (![0] : Fin 1 → Fin S320000x1.rank)
  reducesTo_S320000x128_S320000_d1 : S320000x128.ReducesTo [1] S320000
  h_S_ : 0 < S_.numel
  concatenates_S320000x1_S320000x1_S320000x2_d1 : Shape.Concatenates [S320000x1, S320000x1] S320000x2 1
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  scatter_S128x10000_S1_S2x10000_01_n_0_0_wf : ScatterDims.WF S128x10000 S1 S2x10000 [0, 1] [] [0] 0
  dot_S200x10000_S10000x128_S200x128_1_0_0_1_n_n_wf : DotDims.WF S200x10000 S10000x128 S200x128 [1] [0] [0] [1] [] []
  gather_S10000x128_S320000x1_S320000x128_1_0_n_n_0_1_1128_wf : GatherDims.WF S10000x128 S320000x1 S320000x128 [1] [0] [] [0] [] 1 ![1, 128]
  gather_S10000x2_S320000x2_S320000_n_01_n_n_01_1_11_wf : GatherDims.WF S10000x2 S320000x2 S320000 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S10000x128.size a
  hwx0_4 : ∀ i : grid0.Coords, EltTy.bits .f32 = 32 ∨ (Rect.block (s := S10000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x128.size a ≤ S10000x128.size a
  hwx1_2 : ∀ i : grid1.Coords, EltTy.bits .f32 = 32 ∨ (Rect.block (s := S10000x128) S200x128.size (cc1_transform_2 i) (hinb1_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def scatter_S128x10000_S1_S2x10000_01_n_0_0 : ScatterDims S128x10000 S1 S2x10000 where
  updateWindowDims := [0, 1]
  insertedWindowDims := []
  scatterDimsToOperandDims := [0]
  indexVectorDim := 0
  wf := scatter_S128x10000_S1_S2x10000_01_n_0_0_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def gather_S10000x2_S320000x2_S320000_n_01_n_n_01_1_11 : GatherDims S10000x2 S320000x2 S320000 where
  offsetDims := []
  collapsedSliceDims := [0, 1]
  operandBatchingDims := []
  startIndicesBatchingDims := []
  startIndexMap := [0, 1]
  indexVectorDim := 1
  sliceSizes := ![1, 1]
  wf := gather_S10000x2_S320000x2_S320000_n_01_n_n_01_1_11_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S200x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S128x512 : Shape := ⟨2, ![128, 512]⟩
abbrev S128 : Shape := ⟨1, ![128]⟩
abbrev S128x128 : Shape := ⟨2, ![128, 128]⟩
abbrev S2x10000 : Shape := ⟨2, ![2, 10000]⟩
abbrev S2x320000 : Shape := ⟨2, ![2, 320000]⟩
abbrev S512x128 : Shape := ⟨2, ![512, 128]⟩
abbrev S10000x128 : Shape := ⟨2, ![10000, 128]⟩
abbrev S1x128 : Shape := ⟨2, ![1, 128]⟩
abbrev S_ : Shape := ⟨0, ![]⟩
abbrev S10000 : Shape := ⟨1, ![10000]⟩
abbrev S10000x1 : Shape := ⟨2, ![10000, 1]⟩
abbrev S1x320000 : Shape := ⟨2, ![1, 320000]⟩
abbrev S320000 : Shape := ⟨1, ![320000]⟩
abbrev S330000 : Shape := ⟨1, ![330000]⟩
abbrev S330000x1 : Shape := ⟨2, ![330000, 1]⟩
abbrev S330000x128 : Shape := ⟨2, ![330000, 128]⟩
abbrev S10000x2 : Shape := ⟨2, ![10000, 2]⟩
abbrev S320000x1 : Shape := ⟨2, ![320000, 1]⟩
abbrev S320000x128 : Shape := ⟨2, ![320000, 128]⟩
abbrev S320000x2 : Shape := ⟨2, ![320000, 2]⟩

abbrev nBuf : Space → Nat
  | .hbm => 178
  | .vmem => 0
  | .smem => 0
  | _ => 0

abbrev hbmTy0_0 (i : Nat) : BufTy := match i % 128 with
  | 0 => ⟨S10000x512, .f32⟩
  | 1 => ⟨S10000x10000, .f32⟩
  | 2 => ⟨S128x512, .f32⟩
  | 3 => ⟨S128, .f32⟩
  | 4 => ⟨S128x128, .f32⟩
  | 5 => ⟨S128, .f32⟩
  | 6 => ⟨S2x10000, .f32⟩
  | 7 => ⟨S2x320000, .i32⟩
  | 8 => ⟨S512x128, .f32⟩
  | 9 => ⟨S10000x128, .f32⟩
  | 10 => ⟨S1x128, .f32⟩
  | 11 => ⟨S10000x128, .f32⟩
  | 12 => ⟨S10000x128, .f32⟩
  | 13 => ⟨S10000x128, .f32⟩
  | 14 => ⟨S_, .f32⟩
  | 15 => ⟨S10000, .f32⟩
  | 16 => ⟨S10000x1, .f32⟩
  | 17 => ⟨S10000x1, .f32⟩
  | 18 => ⟨S_, .f32⟩
  | 19 => ⟨S10000x1, .f32⟩
  | 20 => ⟨S10000x1, .f32⟩
  | 21 => ⟨S10000x128, .f32⟩
  | 22 => ⟨S10000x128, .f32⟩
  | 23 => ⟨S_, .f32⟩
  | 24 => ⟨S10000x128, .f32⟩
  | 25 => ⟨S10000x128, .f32⟩
  | 26 => ⟨S10000, .i32⟩
  | 27 => ⟨S1x320000, .i32⟩
  | 28 => ⟨S320000, .i32⟩
  | 29 => ⟨S330000, .i32⟩
  | 30 => ⟨S1x320000, .i32⟩
  | 31 => ⟨S320000, .i32⟩
  | 32 => ⟨S330000, .i32⟩
  | 33 => ⟨S128x128, .f32⟩
  | 34 => ⟨S10000x128, .f32⟩
  | 35 => ⟨S_, .f32⟩
  | 36 => ⟨S330000, .f32⟩
  | 37 => ⟨S_, .f32⟩
  | 38 => ⟨S10000, .f32⟩
  | 39 => ⟨S330000x1, .i32⟩
  | 40 => ⟨S10000, .f32⟩
  | 41 => ⟨S_, .f32⟩
  | 42 => ⟨S10000, .f32⟩
  | 43 => ⟨S10000, .i1⟩
  | 44 => ⟨S10000, .f32⟩
  | 45 => ⟨S_, .f32⟩
  | 46 => ⟨S_, .f32⟩
  | 47 => ⟨S10000, .f32⟩
  | 48 => ⟨S10000, .f32⟩
  | 49 => ⟨S_, .i32⟩
  | 50 => ⟨S330000, .i32⟩
  | 51 => ⟨S330000, .i1⟩
  | 52 => ⟨S_, .i32⟩
  | 53 => ⟨S330000, .i32⟩
  | 54 => ⟨S330000, .i32⟩
  | 55 => ⟨S330000, .i32⟩
  | 56 => ⟨S330000x1, .i32⟩
  | 57 => ⟨S330000, .f32⟩
  | 58 => ⟨S_, .i32⟩
  | 59 => ⟨S330000, .i32⟩
  | 60 => ⟨S330000, .i1⟩
  | 61 => ⟨S_, .i32⟩
  | 62 => ⟨S330000, .i32⟩
  | 63 => ⟨S330000, .i32⟩
  | 64 => ⟨S330000, .i32⟩
  | 65 => ⟨S330000x1, .i32⟩
  | 66 => ⟨S330000, .f32⟩
  | 67 => ⟨S330000, .f32⟩
  | 68 => ⟨S_, .i32⟩
  | 69 => ⟨S330000, .i32⟩
  | 70 => ⟨S330000, .i1⟩
  | 71 => ⟨S_, .i32⟩
  | 72 => ⟨S330000, .i32⟩
  | 73 => ⟨S330000, .i32⟩
  | 74 => ⟨S330000, .i32⟩
  | 75 => ⟨S330000x1, .i32⟩
  | 76 => ⟨S330000x128, .f32⟩
  | 77 => ⟨S330000x1, .f32⟩
  | 78 => ⟨S330000x128, .f32⟩
  | 79 => ⟨S330000x128, .f32⟩
  | 80 => ⟨S_, .f32⟩
  | 81 => ⟨S10000x128, .f32⟩
  | 82 => ⟨S330000x1, .i32⟩
  | 83 => ⟨S10000x128, .f32⟩
  | 84 => ⟨S1x128, .f32⟩
  | 85 => ⟨S10000x128, .f32⟩
  | 86 => ⟨S10000x128, .f32⟩
  | 87 => ⟨S10000x2, .f32⟩
  | 88 => ⟨S10000x2, .f32⟩
  | 89 => ⟨S10000x2, .f32⟩
  | 90 => ⟨S_, .f32⟩
  | 91 => ⟨S10000, .f32⟩
  | 92 => ⟨S10000x1, .f32⟩
  | 93 => ⟨S10000x1, .f32⟩
  | 94 => ⟨S_, .f32⟩
  | 95 => ⟨S10000x1, .f32⟩
  | 96 => ⟨S10000x1, .f32⟩
  | 97 => ⟨S10000x2, .f32⟩
  | 98 => ⟨S10000x2, .f32⟩
  | 99 => ⟨S_, .f32⟩
  | 100 => ⟨S10000x2, .f32⟩
  | 101 => ⟨S10000x2, .f32⟩
  | 102 => ⟨S1x320000, .i32⟩
  | 103 => ⟨S320000, .i32⟩
  | 104 => ⟨S1x320000, .i32⟩
  | 105 => ⟨S320000, .i32⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S320000x128, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S320000x128, .f32⟩
  | 124 => ⟨S320000x128, .f32⟩
  | 125 => ⟨S_, .f32⟩
  | 126 => ⟨S320000, .f32⟩
  | 127 => ⟨S_, .i32⟩
  | _ => ⟨S10000x512, .f32⟩

abbrev hbmTy0_1 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S_, .i32⟩
  | 7 => ⟨S320000, .i32⟩
  | 8 => ⟨S320000, .i32⟩
  | 9 => ⟨S320000x1, .i32⟩
  | 10 => ⟨S320000x1, .i32⟩
  | 11 => ⟨S320000x2, .i32⟩
  | 12 => ⟨S320000, .f32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S_, .i32⟩
  | 21 => ⟨S320000, .i32⟩
  | 22 => ⟨S320000, .i32⟩
  | 23 => ⟨S320000x1, .i32⟩
  | 24 => ⟨S320000x1, .i32⟩
  | 25 => ⟨S320000x2, .i32⟩
  | 26 => ⟨S320000, .f32⟩
  | 27 => ⟨S320000, .f32⟩
  | 28 => ⟨S320000, .f32⟩
  | 29 => ⟨S320000, .f32⟩
  | 30 => ⟨S_, .f32⟩
  | 31 => ⟨S320000, .f32⟩
  | 32 => ⟨S320000, .f32⟩
  | 33 => ⟨S_, .f32⟩
  | 34 => ⟨S320000, .f32⟩
  | 35 => ⟨S320000, .f32⟩
  | 36 => ⟨S320000, .f32⟩
  | 37 => ⟨S_, .f32⟩
  | 38 => ⟨S320000, .f32⟩
  | 39 => ⟨S320000, .f32⟩
  | 40 => ⟨S320000, .f32⟩
  | 41 => ⟨S320000, .f32⟩
  | 42 => ⟨S_, .f32⟩
  | 43 => ⟨S320000, .f32⟩
  | 44 => ⟨S320000, .f32⟩
  | 45 => ⟨S_, .f32⟩
  | 46 => ⟨S320000, .f32⟩
  | 47 => ⟨S320000, .f32⟩
  | 48 => ⟨S320000, .f32⟩
  | 49 => ⟨S320000, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_v31 : Ref sig .tc := ⟨.hbm, 48, rfl⟩
abbrev main_c : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_15 : Ref sig .tc := ⟨.hbm, 106, rfl⟩
abbrev main_v79 : Ref sig .tc := ⟨.hbm, 107, rfl⟩
abbrev main_v80 : Ref sig .tc := ⟨.hbm, 108, rfl⟩
abbrev main_c_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_17 : Ref sig .tc := ⟨.hbm, 115, rfl⟩
abbrev main_v86 : Ref sig .tc := ⟨.hbm, 116, rfl⟩
abbrev main_v87 : Ref sig .tc := ⟨.hbm, 117, rfl⟩
abbrev main_c_18 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_c_20 : Ref sig .tc := ⟨.hbm, 127, rfl⟩
abbrev main_v95 : Ref sig .tc := ⟨.hbm, 128, rfl⟩
abbrev main_v96 : Ref sig .tc := ⟨.hbm, 129, rfl⟩
abbrev main_c_21 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_22 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_23 : Ref sig .tc := ⟨.hbm, 141, rfl⟩
abbrev main_v106 : Ref sig .tc := ⟨.hbm, 142, rfl⟩
abbrev main_v107 : Ref sig .tc := ⟨.hbm, 143, rfl⟩
abbrev main_c_24 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_25 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_26 : Ref sig .tc := ⟨.hbm, 158, rfl⟩
abbrev main_v120 : Ref sig .tc := ⟨.hbm, 159, rfl⟩
abbrev main_v121 : Ref sig .tc := ⟨.hbm, 160, rfl⟩
abbrev main_cst_27 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_28 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_29 : Ref sig .tc := ⟨.hbm, 170, rfl⟩
abbrev main_v129 : Ref sig .tc := ⟨.hbm, 171, rfl⟩
abbrev main_v130 : Ref sig .tc := ⟨.hbm, 172, rfl⟩
abbrev main_cst_30 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩

abbrev nD : Nat := 1
abbrev τ : Topo := Topo.v7x

variable {F : FTy → Type} [FloatOps F]

class Facts₀ : Prop where
  transposes_S128x512_S512x128_1_0 : S128x512.Transposes [1, 0] S512x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  transposes_S128x128_S128x128_1_0 : S128x128.Transposes [1, 0] S128x128
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x128_0_1 : S330000x1.BroadcastsInDim S330000x128 (![0, 1] : Fin 2 → Fin S330000x128.rank)
  transposes_S2x10000_S10000x2_1_0 : S2x10000.Transposes [1, 0] S10000x2
  reducesTo_S10000x2_S10000_d1 : S10000x2.ReducesTo [1] S10000
  bcast_S10000x1_S10000x2_0_1 : S10000x1.BroadcastsInDim S10000x2 (![0, 1] : Fin 2 → Fin S10000x2.rank)
  bcast_S_S10000x2 : S_.BroadcastsInDim S10000x2 (![] : Fin 0 → Fin S10000x2.rank)
  bcast_S_S320000 : S_.BroadcastsInDim S320000 (![] : Fin 0 → Fin S320000.rank)
  bcast_S320000_S320000x1_0 : S320000.BroadcastsInDim S320000x1 (![0] : Fin 1 → Fin S320000x1.rank)
  reducesTo_S320000x128_S320000_d1 : S320000x128.ReducesTo [1] S320000
  concatenates_S320000x1_S320000x1_S320000x2_d1 : Shape.Concatenates [S320000x1, S320000x1] S320000x2 1
  dot_S10000x512_S512x128_S10000x128_1_0_0_1_n_n_wf : DotDims.WF S10000x512 S512x128 S10000x128 [1] [0] [0] [1] [] []
  dot_S10000x128_S128x128_S10000x128_1_0_0_1_n_n_wf : DotDims.WF S10000x128 S128x128 S10000x128 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S10000x10000_S10000x2_S10000x2_1_0_0_1_n_n_wf : DotDims.WF S10000x10000 S10000x2 S10000x2 [1] [0] [0] [1] [] []
  gather_S10000x128_S320000x1_S320000x128_1_0_n_n_0_1_1128_wf : GatherDims.WF S10000x128 S320000x1 S320000x128 [1] [0] [] [0] [] 1 ![1, 128]
  gather_S10000x2_S320000x2_S320000_n_01_n_n_01_1_11_wf : GatherDims.WF S10000x2 S320000x2 S320000 [] [0, 1] [] [0, 1] [] 1 ![1, 1]

variable [Facts₀]

def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S10000x10000_S10000x2_S10000x2_1_0_0_1_n_n : DotDims S10000x10000 S10000x2 S10000x2 where
  lhsContracting := [1]
  rhsContracting := [0]
  lhsNonContracting := [0]
  rhsNonContracting := [1]
  lhsBatch := []
  rhsBatch := []
  wf := dot_S10000x10000_S10000x2_S10000x2_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def gather_S10000x2_S320000x2_S320000_n_01_n_n_01_1_11 : GatherDims S10000x2 S320000x2 S320000 where
  offsetDims := []
  collapsedSliceDims := [0, 1]
  operandBatchingDims := []
  startIndicesBatchingDims := []
  startIndexMap := [0, 1]
  indexVectorDim := 1
  sliceSizes := ![1, 1]
  wf := gather_S10000x2_S320000x2_S320000_n_01_n_n_01_1_11_wf

class Facts : Prop extends Facts₀ where

variable [Facts]
-- ==== Proof.KernelRun.lean ====
/-
  The idealized kernel program run from the launch to the return, with every buffer named.

  The program is seven segments: a stretch of host operations, the first kernel region, three stretches, the second
  kernel region, and a last stretch. The contents of every unscoped buffer at the seven boundaries are a fold from the
  launch memory: a stretch applies its operations, a region replaces its output array by what its write-backs leave.
  Every weakly fair execution terminates without a fault, and in the final memory every unscoped buffer — the result
  among them — holds the last boundary's contents.
-/
import proofs.«154797_j26414048870608_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every
    core ends at the contents the fold through the seven segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Run

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«154797_j26414048870608_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«154797_j26414048870608_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«154797_j26414048870608_1_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.LibL2Rows.lean ====
/-
  Rows of an array divided by their Euclidean length, on the extended reals.

  `l2scale eps c H` divides every entry of row p of an a×b array H by the larger of eps and the square root of the sum
  of the squares of row p, and multiplies by c. A kernel body spells it with a lane sum, a column re-shaping and two
  broadcasts; the reference with a reduce from a zero constant and broadcasts in dimension. An entry depends on its own
  row only; and columns that are zero past the first b columns of a wider array add nothing to a row's sum of squares,
  so the wider array's first b columns are scaled exactly as the narrow array's. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import proofs.«154797_j26414048870608_1_alg».proof.Proof.LibRowReductions
import proofs.«154797_j26414048870608_1_alg».proof.Proof.LibRowVector
import proofs.«154797_j26414048870608_1_alg».proof.Proof.LibHostRows

open scoped BigOperators

noncomputable section

namespace Cert.Lib.L2Rows

open Idealize.ShloMosaic Idealize.ShloMosaic.ValueIdx

variable {a b : Nat}

/-- The sum of the squares of row p. -/
def rowSq (H : (⟨2, ![a, b]⟩ : Shape).Idx → EReal) (p : Fin a) : EReal := ∑ k : Fin b, H (ix2 p k) * H (ix2 p k)

/-- Every entry of row p divided by max(√(sum of squares of row p), eps), times c. -/
def l2scale (eps c : EReal) (H : (⟨2, ![a, b]⟩ : Shape).Idx → EReal) : (⟨2, ![a, b]⟩ : Shape).Idx → EReal :=
  fun i => Ideal.div (H i) (max (Ideal.sqrt (rowSq H (i 0))) eps) * c

theorem l2scale_apply (eps c : EReal) (H : (⟨2, ![a, b]⟩ : Shape).Idx → EReal) (p : Fin a) (q : Fin b) :
    l2scale eps c H (ix2 p q) = Ideal.div (H (ix2 p q)) (max (Ideal.sqrt (rowSq H p)) eps) * c := rfl

/-- An entry depends on its own row: if row y of H' is row p of H, the scaled entries of the two rows agree. -/
theorem l2scale_rows {a' : Nat} (eps c : EReal) (H : (⟨2, ![a, b]⟩ : Shape).Idx → EReal)
    (H' : (⟨2, ![a', b]⟩ : Shape).Idx → EReal) (y : Fin a') (p : Fin a)
    (h : ∀ k : Fin b, H' (ix2 y k) = H (ix2 p k)) (q : Fin b) :
    l2scale eps c H' (ix2 y q) = l2scale eps c H (ix2 p q) := by
  rw [l2scale_apply, l2scale_apply, h q]
  have hs : rowSq H' y = rowSq H p := Finset.sum_congr rfl fun k _ => by rw [h k]
  rw [hs]

/-- Zero columns add nothing: if the first b columns of a wider array H' are H and the others are zero, a row of H'
    has the sum of squares of the same row of H. -/
theorem rowSq_pad {b' : Nat} (hb : b ≤ b') (H : (⟨2, ![a, b]⟩ : Shape).Idx → EReal)
    (H' : (⟨2, ![a, b']⟩ : Shape).Idx → EReal) (p : Fin a)
    (h1 : ∀ k : Fin b, H' (ix2 p (Fin.castLE hb k)) = H (ix2 p k))
    (h0 : ∀ k : Fin b', b ≤ k.val → H' (ix2 p k) = 0) : rowSq H' p = rowSq H p := by
  unfold rowSq
  have e : ∑ k : Fin b, H (ix2 p k) * H (ix2 p k)
      = ∑ k ∈ Finset.univ.map (Fin.castLEEmb hb), H' (ix2 p k) * H' (ix2 p k) := by
    rw [Finset.sum_map]
    exact Finset.sum_congr rfl fun k _ => by rw [← h1 k]; rfl
  rw [e]
  symm
  refine Finset.sum_subset (Finset.subset_univ _) fun k _ hk => ?_
  have hk' : b ≤ k.val := by
    by_contra hlt
    exact hk (Finset.mem_map.mpr ⟨⟨k.val, by omega⟩, Finset.mem_univ _, Fin.ext rfl⟩)
  rw [h0 k hk', mul_zero]

/-- So the first b columns of the wider array are scaled exactly as the narrow array. -/
theorem l2scale_pad {b' : Nat} (hb : b ≤ b') (eps c : EReal) (H : (⟨2, ![a, b]⟩ : Shape).Idx → EReal)
    (H' : (⟨2, ![a, b']⟩ : Shape).Idx → EReal) (p : Fin a)
    (h1 : ∀ k : Fin b, H' (ix2 p (Fin.castLE hb k)) = H (ix2 p k))
    (h0 : ∀ k : Fin b', b ≤ k.val → H' (ix2 p k) = 0) (q : Fin b) :
    l2scale eps c H' (ix2 p (Fin.castLE hb q)) = l2scale eps c H (ix2 p q) := by
  rw [l2scale_apply, l2scale_apply, h1 q, rowSq_pad hb H H' p h1 h0]

/-- A kernel body's spelling: the block times itself, summed along the lanes into a zero accumulator, re-shaped to a
    column, its square root joined with a splat of eps, broadcast back across the columns, the block divided by it,
    times a splat of c. -/
theorem body_eq (H : FVec Ideal ⟨2, ![a, b]⟩ .f32) (acc eps c : BitVec 32)
    (hr : (⟨2, ![a, b]⟩ : Shape).Reduces [1] ⟨1, ![a]⟩) (hφ : FKind.Formats FTy.f32)
    (hacc : acc = FKind.add.neutral .f32 hφ)
    (hc : (⟨1, ![a]⟩ : Shape).ShapeCasts ⟨2, ![a, 1]⟩) (hb : (⟨2, ![a, 1]⟩ : Shape).Broadcasts ⟨2, ![a, b]⟩) :
    mulf (divf H (broadcastTo ⟨2, ![a, b]⟩
        (maximumf (sqrt (shapeCast ⟨2, ![a, 1]⟩ (multiReduction .add [1] ⟨1, ![a]⟩ (mulf H H) acc hr hφ hacc) hc))
          (broadcast ⟨2, ![a, 1]⟩ (Scalar.ofBits (F := Ideal) .f32 eps))) hb))
      (broadcast ⟨2, ![a, b]⟩ (Scalar.ofBits (F := Ideal) .f32 c))
      = l2scale (Ideal.ofBits .f32 eps) (Ideal.ofBits .f32 c) H := by
  funext i
  obtain ⟨p, q, rfl⟩ : ∃ (p : Fin a) (q : Fin b), i = ix2 p q := ⟨i 0, i 1, eq_ix2 i⟩
  rw [mulf_apply, divf_apply, Cert.Lib.RowReductions.broadcast_col_apply, maximumf_apply]
  show Ideal.div (H (ix2 p q)) (max (Ideal.sqrt (shapeCast ⟨2, ![a, 1]⟩ _ hc (ix2 p 0))) _) * _ = _
  rw [Cert.Lib.RowReductions.shapeCast_col_apply, Cert.Lib.RowReductions.rowsum_apply]
  rfl

/-- The reference's spelling: the array times itself, reduced along each row from a zero constant, broadcast to a
    column, its square root joined with a broadcast eps, broadcast across the columns, the array divided by it, times a
    broadcast c. -/
theorem host_eq (H : FVec Ideal ⟨2, ![a, b]⟩ .f32) (eps c : BitVec 32)
    (hr : (⟨2, ![a, b]⟩ : Shape).ReducesTo [1] ⟨1, ![a]⟩) (hu : 0 < (⟨0, ![]⟩ : Shape).numel)
    (h1 : (⟨1, ![a]⟩ : Shape).BroadcastsInDim ⟨2, ![a, 1]⟩ ![0])
    (h2 : (⟨0, ![]⟩ : Shape).BroadcastsInDim ⟨2, ![a, 1]⟩ ![])
    (h3 : (⟨2, ![a, 1]⟩ : Shape).BroadcastsInDim ⟨2, ![a, b]⟩ ![0, 1])
    (h4 : (⟨0, ![]⟩ : Shape).BroadcastsInDim ⟨2, ![a, b]⟩ ![]) :
    mulf (Host.divf H (broadcastInDim ⟨2, ![a, b]⟩ _ h3
        (maximumf (Host.sqrt (broadcastInDim ⟨2, ![a, 1]⟩ _ h1
            (Host.reduceAdd (mulf H H) (constant (F := Ideal) ⟨0, ![]⟩ .f32 0x00000000#32) hr hu)))
          (broadcastInDim ⟨2, ![a, 1]⟩ _ h2 (constant (F := Ideal) ⟨0, ![]⟩ .f32 eps)))))
      (broadcastInDim ⟨2, ![a, b]⟩ _ h4 (constant (F := Ideal) ⟨0, ![]⟩ .f32 c))
      = l2scale (Ideal.ofBits .f32 eps) (Ideal.ofBits .f32 c) H := by
  funext i
  obtain ⟨p, q, rfl⟩ : ∃ (p : Fin a) (q : Fin b), i = ix2 p q := ⟨i 0, i 1, eq_ix2 i⟩
  rw [mulf_apply, Cert.Lib.RowVector.bcastInDim_scalar_apply]
  show Ideal.div (H (ix2 p q)) (broadcastInDim ⟨2, ![a, b]⟩ _ h3 _ (ix2 p q)) * _ = _
  rw [Cert.Lib.RowReductions.bcastInDim_cols_apply, maximumf_apply, Cert.Lib.RowVector.bcastInDim_scalar_apply]
  show Ideal.div (H (ix2 p q)) (max (Ideal.sqrt (broadcastInDim ⟨2, ![a, 1]⟩ _ h1 _ (ix2 p 0))) _) * _ = _
  rw [Cert.Lib.RowReductions.bcastInDim_col_apply, Cert.Lib.HostRows.host_rowsum_apply]
  show Ideal.div (H (ix2 p q)) (max (Ideal.sqrt (Ideal.ofBits .f32 0x00000000#32 + rowSq H p)) _) * _ = _
  rw [Ideal.ofBits_zero_f32, zero_add]
  rfl

end Cert.Lib.L2Rows

end
-- ==== Proof.LibNormLayer.lean ====
/-
  A dense layer whose rows are divided by their Euclidean length, followed by a second product, on the extended reals.

  `addRow M b` adds the 1×n row b to every row of M. `normLayer eps c X Wt b Gt` is
  (rows of (X·Wt + b) divided by max(their length, eps), times c) · Gt, as a function of whole arrays. An entry of the
  result depends on one row of X, so a block of rows of X gives the same rows of the result. A kernel body spells the
  layer with two products into zero accumulators around the row scaling, the reference with two dot_generals; both are
  this function. Nothing here mentions a program.
-/
import Idealize.ShloMosaic.PureOps.Ideal.Laws
import Idealize.ShloMosaic.Lib.ValueIdx
import Idealize.ShloMosaic.Lib.Pipeline.Value
import proofs.«154797_j26414048870608_1_alg».proof.Proof.LibBlockReads
import proofs.«154797_j26414048870608_1_alg».proof.Proof.LibMatProd
import proofs.«154797_j26414048870608_1_alg».proof.Proof.LibRowVector
import proofs.«154797_j26414048870608_1_alg».proof.Proof.LibL2Rows

open scoped BigOperators

noncomputable section

namespace Cert.Lib.NormLayer

open Idealize.ShloMosaic Idealize.ShloMosaic.ValueIdx Cert.Lib.MatProd Cert.Lib.L2Rows

variable {r k n n' : Nat}

/-- The 1×n row b added to every row of M. -/
def addRow (M : (⟨2, ![r, n]⟩ : Shape).Idx → EReal) (b : (⟨2, ![1, n]⟩ : Shape).Idx → EReal) :
    (⟨2, ![r, n]⟩ : Shape).Idx → EReal := fun i => M i + b (ix2 0 (i 1))

theorem addRow_apply (M : (⟨2, ![r, n]⟩ : Shape).Idx → EReal) (b : (⟨2, ![1, n]⟩ : Shape).Idx → EReal)
    (p : Fin r) (q : Fin n) : addRow M b (ix2 p q) = M (ix2 p q) + b (ix2 0 q) := rfl

/-- (rows of (X·Wt + b), each divided by max(its length, eps), times c) · Gt. -/
def normLayer (eps c : EReal) (X : (⟨2, ![r, k]⟩ : Shape).Idx → EReal) (Wt : (⟨2, ![k, n]⟩ : Shape).Idx → EReal)
    (b : (⟨2, ![1, n]⟩ : Shape).Idx → EReal) (Gt : (⟨2, ![n, n']⟩ : Shape).Idx → EReal) :
    (⟨2, ![r, n']⟩ : Shape).Idx → EReal :=
  matProd (l2scale eps c (addRow (matProd X Wt) b)) Gt

/-- An entry of the layer depends on one row of X: if row y of X' is row p of X, row y of the layer of X' is row p of
    the layer of X. -/
theorem normLayer_rows {r' : Nat} (eps c : EReal) (X : (⟨2, ![r, k]⟩ : Shape).Idx → EReal)
    (X' : (⟨2, ![r', k]⟩ : Shape).Idx → EReal) (Wt : (⟨2, ![k, n]⟩ : Shape).Idx → EReal)
    (b : (⟨2, ![1, n]⟩ : Shape).Idx → EReal) (Gt : (⟨2, ![n, n']⟩ : Shape).Idx → EReal) (y : Fin r') (p : Fin r)
    (h : ∀ j : Fin k, X' (ix2 y j) = X (ix2 p j)) (q : Fin n') :
    normLayer eps c X' Wt b Gt (ix2 y q) = normLayer eps c X Wt b Gt (ix2 p q) := by
  unfold normLayer
  refine matProd_block _ _ Gt Gt y q p q (fun j => ?_) (fun _ => rfl)
  refine l2scale_rows eps c _ _ y p (fun j' => ?_) j
  rw [addRow_apply, addRow_apply]
  exact congrArg (· + b (ix2 0 j')) (matProd_block X X' Wt Wt y j' p j' h (fun _ => rfl))

/-- A loaded 1×n row re-shaped in place, broadcast down the rows and added to a block is `addRow`. -/
theorem body_addRow (M : FVec Ideal ⟨2, ![r, n]⟩ .f32) (b : FVec Ideal ⟨2, ![1, n]⟩ .f32)
    (hc : (⟨2, ![1, n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ b hc) hb) = addRow M b := by
  funext i
  obtain ⟨p, q, rfl⟩ : ∃ (p : Fin r) (q : Fin n), i = ix2 p q := ⟨i 0, i 1, eq_ix2 i⟩
  rw [addf_apply, shapeCast_self, Cert.Lib.BlockReads.broadcast_row_apply]
  rfl

/-- The reference's spelling of the same: the vector broadcast to a 1×n row, that row broadcast down the rows, added. -/
theorem host_addRow (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v))
      = addRow M (Cert.Lib.RowVector.asRow v) := by
  funext i
  obtain ⟨p, q, rfl⟩ : ∃ (p : Fin r) (q : Fin n), i = ix2 p q := ⟨i 0, i 1, eq_ix2 i⟩
  rw [addf_apply, Cert.Lib.RowVector.bcastInDim_rows_apply, Cert.Lib.RowVector.bcastInDim_eq_asRow]
  rfl

end Cert.Lib.NormLayer

end
-- ==== Proof.XwValue.lean ====
/-
  What the first kernel region leaves in its output array, on the extended reals.

  The region's grid has five points; point t loads rows 2000·t … 2000·t + 1999 of the 10000×512 input, the whole weight
  arrays and the bias row, and stores the 2000×128 block
      (rows of (X·W2ᵀ + b2) divided by max(their Euclidean length, eps), times c) · Wgᵀ
  at the same rows of the output. An entry of that layer depends on one row of X, so block t of the output is rows
  2000·t … of the layer of the whole input, and the five blocks cover the output: the array ends at the layer of the
  whole input.
-/
import proofs.«154797_j26414048870608_1_alg».proof.Proof.Gen.KernelIdeal.Frame
import Idealize.ShloMosaic.Lib.Pipeline.Value
import Idealize.ShloMosaic.Lib.ValueIdx
import proofs.«154797_j26414048870608_1_alg».proof.Proof.LibNormLayer

set_option maxRecDepth 16384

noncomputable section

namespace Cert.KernelIdeal.Xw

open Cert.KernelIdeal Cert.KernelIdeal.Gen
open Idealize.ShloMosaic Idealize.ShloMosaic.TcCoe Idealize.SL.Sem Idealize.ShloMosaic.ValueIdx
open Idealize.ShloMosaic.Pipeline (Dat)
open Cert.Lib.MatProd Cert.Lib.L2Rows Cert.Lib.NormLayer

/-- The words of eps (1e-12 rounded) and of the scale 1.8 (rounded). -/
abbrev epsW : BitVec 32 := 0x2B8CBCCC#32
abbrev c18W : BitVec 32 := 0x3FE66666#32

/-- The layer as a function of whole arrays with r rows: X is r×512, W2 is 128×512, b a 1×128 row, Wg 128×128. -/
def layer {r : Nat} (X : (⟨2, ![r, 512]⟩ : Shape).Idx → EReal) (W2 : FVec Ideal S128x512 .f32)
    (b : (⟨2, ![1, 128]⟩ : Shape).Idx → EReal) (Wg : FVec Ideal S128x128 .f32) : (⟨2, ![r, 128]⟩ : Shape).Idx → EReal :=
  normLayer (Ideal.ofBits .f32 epsW) (Ideal.ofBits .f32 c18W) X
    (transpose S512x128 [1, 0] W2 transposes_S128x512_p1_0_S512x128) b
    (transpose S128x128 [1, 0] Wg transposes_S128x128_p1_0_S128x128)

/-- The body's stored value is the layer of its loaded blocks. -/
theorem pay_eq (x0 : Vec Ideal S2000x512 .f32) (x1 : Vec Ideal S128x512 .f32) (x2 : Vec Ideal S1x128 .f32)
    (x3 : Vec Ideal S128x128 .f32) : k0_pay1 (F := Ideal) x0 x1 x2 x3 = layer x0 x1 x2 x3 := by
  unfold k0_pay1 layer normLayer
  dsimp only
  rw [matmul_zero_eq_matProd dot_S2000x512_S512x128_S2000x128_1_0_0_1_n_n rfl rfl rfl rfl rfl rfl, body_addRow]
  erw [Cert.Lib.L2Rows.body_eq]
  rw [matmul_zero_eq_matProd dot_S2000x128_S128x128_S2000x128_1_0_0_1_n_n rfl rfl rfl rfl rfl rfl]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the output's row blocks move with the point, the weights'
    and the bias row's blocks stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The whole output as a function of the region's entry contents. -/
def whole (c : Dev nD) : S10000x128.Idx → EReal :=
  layer (r := 10000) (V c main_arg0) (V c main_arg2) (V c main_v0) (V c main_arg4)

/-- The weights' block at any point is the whole array. -/
theorem iblk_w2 (c : Dev nD) (t : Fin cfg0.N) : (iblk0 V c 1 t : Vec Ideal S128x512 .f32) = V c main_arg2 := by
  obtain ⟨-, -, e0, e1, -⟩ := idx_facts t
  funext y
  unfold iblk0
  rw [View.read_apply]
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; rw [e0]; omega
  | ⟨1, _⟩ => show win0_1.index t (1 : Fin 2) * 512 + 1 * (y 1).val = (y 1).val; rw [e1]; omega

theorem iblk_b2 (c : Dev nD) (t : Fin cfg0.N) : (iblk0 V c 2 t : Vec Ideal S1x128 .f32) = V c main_v0 := by
  obtain ⟨-, -, -, -, e0, e1, -⟩ := idx_facts t
  funext y
  unfold iblk0
  rw [View.read_apply]
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

theorem iblk_wg (c : Dev nD) (t : Fin cfg0.N) : (iblk0 V c 3 t : Vec Ideal S128x128 .f32) = V c main_arg4 := by
  obtain ⟨-, -, -, -, -, -, e0, e1, -⟩ := idx_facts t
  funext y
  unfold iblk0
  rw [View.read_apply]
  show V c main_arg4 (((cfg0.win 3).blk t).view.emb y) = V c main_arg4 y
  refine congrArg (V c main_arg4) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The input's block at point t is rows 2000·t … of the input. -/
theorem iblk_x (c : Dev nD) (t : Fin cfg0.N) (y : Fin 2000) (k : Fin 512) (i : Fin 10000)
    (hi : i.val = t.val * 2000 + y.val) :
    (iblk0 V c 0 t : Vec Ideal S2000x512 .f32) (ix2 y k) = V c main_arg0 (ix2 i k) := by
  obtain ⟨e0, e1, -⟩ := idx_facts t
  unfold iblk0
  rw [View.read_apply]
  show V c main_arg0 (((cfg0.win 0).blk t).view.emb (ix2 y k)) = V c main_arg0 (ix2 i k)
  refine congrArg (V c main_arg0) (funext fun a => Fin.ext ?_)
  match a with
  | ⟨0, _⟩ => show win0_0.index t (0 : Fin 2) * 2000 + 1 * y.val = i.val; rw [e0, hi]; omega
  | ⟨1, _⟩ => show win0_0.index t (1 : Fin 2) * 512 + 1 * k.val = k.val; rw [e1]; omega

/-- What point t writes back is block t of the layer of the whole input. -/
theorem flushed_eq (c : Dev nD) (t : Fin cfg0.N) :
    (dat0 V c).flushed 4 t = ((cfg0.win 4).blk t).view.read (Elt Ideal) (whole V c) := by
  show (cfg0.win 4).cut (grid0.coords t) ((dat0 V c).after 4 t) = _
  rw [after0_4]
  unfold out0_4
  rw [View.canon_unit_zero hz]
  simp only [View.ld_unit_zero (S := S2000x512) hz, View.ld_unit_zero (S := S128x512) hz,
    View.ld_unit_zero (S := S1x128) hz, View.ld_unit_zero (S := S128x128) hz]
  rw [pay_eq, iblk_w2, iblk_b2, iblk_wg]
  obtain ⟨-, -, -, -, -, -, -, -, e0, e1⟩ := idx_facts t
  have hN : cfg0.N = 5 := N_0
  funext j
  obtain ⟨y, q, rfl⟩ : ∃ (y : Fin 2000) (q : Fin 128), j = ix2 y q := ⟨j 0, j 1, eq_ix2 j⟩
  have hlt : t.val * 2000 + y.val < 10000 := by have := t.isLt; have := y.isLt; omega
  have hemb : ((cfg0.win 4).blk t).view.emb (ix2 y q) = ix2 (⟨t.val * 2000 + y.val, hlt⟩ : Fin 10000) q := by
    funext a; apply Fin.ext
    match a with
    | ⟨0, _⟩ => show win0_4.index t (0 : Fin 2) * 2000 + 1 * y.val = t.val * 2000 + y.val; rw [e0]; omega
    | ⟨1, _⟩ => show win0_4.index t (1 : Fin 2) * 128 + 1 * q.val = q.val; rw [e1]; omega
  show layer (iblk0 V c 0 t) (V c main_arg2) (V c main_v0) (V c main_arg4) (ix2 y q)
    = whole V c (((cfg0.win 4).blk t).view.emb (ix2 y q))
  rw [hemb]
  exact normLayer_rows _ _ _ _ _ _ _ y ⟨t.val * 2000 + y.val, hlt⟩ (fun k => iblk_x V c t y k _ rfl) q

/-- An index of the output is in point t's block iff its row is among the block's rows. -/
theorem mem_blk (t : Fin cfg0.N) (i : S10000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v1).slice (win0_4.rect t)).set ↔ _
  rw [View.set_slice_whole, Rect.mem_set_unit]
  exact Iff.rfl

/-- The output array after the region: the layer of the whole input. -/
theorem final (c : Dev nD) : (dat0 V c).arrAt 4 cfg0.N = whole V c :=
  (dat0 V c).arrAt_eq_of_cover 4 (whole V c) (fun t _ => flushed_eq V c t) fun i => by
    have hN : cfg0.N = 5 := N_0
    have hi0 : (i 0).val < 10000 := (i 0).isLt
    have hi1 : (i 1).val < 128 := (i 1).isLt
    refine ⟨⟨(i 0).val / 2000, by rw [hN]; omega⟩, flush0_4 _, ?_⟩
    rw [mem_blk]
    obtain ⟨-, -, -, -, -, -, -, -, e0, e1⟩ := idx_facts ⟨(i 0).val / 2000, by rw [hN]; omega⟩
    intro a
    match a with
    | ⟨0, _⟩ =>
      show win0_4.index _ (0 : Fin 2) * 2000 ≤ (i 0).val ∧ (i 0).val < win0_4.index _ (0 : Fin 2) * 2000 + 2000
      rw [e0]; dsimp only; omega
    | ⟨1, _⟩ =>
      show win0_4.index _ (1 : Fin 2) * 128 ≤ (i 1).val ∧ (i 1).val < win0_4.index _ (1 : Fin 2) * 128 + 128
      rw [e1]; omega

end Cert.KernelIdeal.Xw

end
-- ==== Proof.Z2Value.lean ====
/-
  What the second kernel region leaves in its output array, on the extended reals.

  The region's grid has fifty points; point t loads rows 200·t … 200·t + 199 of the 10000×10000 input and the whole
  10000×128 right operand, and stores the 200×128 block of (X·B with each row divided by max(its Euclidean length, eps),
  times c) at the same rows of the output. An entry depends on one row of X, the fifty blocks cover the output, so the
  array ends at that function of the whole input.
-/
import proofs.«154797_j26414048870608_1_alg».proof.Proof.Gen.KernelIdeal.Frame
import Idealize.ShloMosaic.Lib.Pipeline.Value
import Idealize.ShloMosaic.Lib.ValueIdx
import proofs.«154797_j26414048870608_1_alg».proof.Proof.LibMatProd
import proofs.«154797_j26414048870608_1_alg».proof.Proof.LibL2Rows

set_option maxRecDepth 16384

noncomputable section

namespace Cert.KernelIdeal.Z2

open Cert.KernelIdeal Cert.KernelIdeal.Gen
open Idealize.ShloMosaic Idealize.ShloMosaic.TcCoe Idealize.SL.Sem Idealize.ShloMosaic.ValueIdx
open Idealize.ShloMosaic.Pipeline (Dat)
open Cert.Lib.MatProd Cert.Lib.L2Rows

/-- The words of eps (1e-12 rounded) and of the scale 0.8 (rounded). -/
abbrev epsW : BitVec 32 := 0x2B8CBCCC#32
abbrev c08W : BitVec 32 := 0x3F4CCCCD#32

/-- Rows of X·B divided by max(their length, eps), times c; X has r rows of k entries, B is k×n. -/
def scaled {r k n : Nat} (X : (⟨2, ![r, k]⟩ : Shape).Idx → EReal) (B : (⟨2, ![k, n]⟩ : Shape).Idx → EReal) :
    (⟨2, ![r, n]⟩ : Shape).Idx → EReal :=
  l2scale (Ideal.ofBits .f32 epsW) (Ideal.ofBits .f32 c08W) (matProd X B)

/-- An entry depends on one row of X. -/
theorem scaled_rows {r r' k n : Nat} (X : (⟨2, ![r, k]⟩ : Shape).Idx → EReal) (X' : (⟨2, ![r', k]⟩ : Shape).Idx → EReal)
    (B : (⟨2, ![k, n]⟩ : Shape).Idx → EReal) (y : Fin r') (p : Fin r)
    (h : ∀ j : Fin k, X' (ix2 y j) = X (ix2 p j)) (q : Fin n) : scaled X' B (ix2 y q) = scaled X B (ix2 p q) :=
  l2scale_rows _ _ _ _ y p (fun q' => matProd_block X X' B B y q' p q' h (fun _ => rfl)) q

/-- The body's stored value is that function of its loaded blocks. -/
theorem pay_eq (x0 : Vec Ideal S200x10000 .f32) (x1 : Vec Ideal S10000x128 .bf16) :
    k1_pay1 (F := Ideal) x0 x1 = scaled (r := 200) (k := 10000) (n := 128) x0 x1 := by
  unfold k1_pay1 scaled
  dsimp only
  rw [shapeCast_self, matmul_zero_eq_matProd dot_S200x10000_S10000x128_S200x128_1_0_0_1_n_n rfl rfl rfl rfl rfl rfl]
  erw [Cert.Lib.L2Rows.body_eq]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input's and the output's row blocks move with the point, the right
    operand's block stays at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole output as a function of the region's entry contents. -/
def whole (c : Dev nD) : S10000x128.Idx → EReal :=
  scaled (r := 10000) (k := 10000) (n := 128) (V c main_arg1) (V c main_v52)

theorem iblk_b (c : Dev nD) (t : Fin cfg1.N) : (iblk1 V c 1 t : Vec Ideal S10000x128 .bf16) = V c main_v52 := by
  obtain ⟨-, -, e0, e1, -⟩ := idx_facts t
  funext y
  unfold iblk1
  rw [View.read_apply]
  show V c main_v52 (((cfg1.win 1).blk t).view.emb y) = V c main_v52 y
  refine congrArg (V c main_v52) (funext fun a => Fin.ext ?_)
  match a with
  | ⟨0, _⟩ => show win1_1.index t (0 : Fin 2) * 10000 + 1 * (y 0).val = (y 0).val; rw [e0]; omega
  | ⟨1, _⟩ => show win1_1.index t (1 : Fin 2) * 128 + 1 * (y 1).val = (y 1).val; rw [e1]; omega

/-- The input's block at point t is rows 200·t … of the input. -/
theorem iblk_x (c : Dev nD) (t : Fin cfg1.N) (y : Fin 200) (k : Fin 10000) (i : Fin 10000)
    (hi : i.val = t.val * 200 + y.val) :
    (iblk1 V c 0 t : Vec Ideal S200x10000 .f32) (ix2 y k) = V c main_arg1 (ix2 i k) := by
  obtain ⟨e0, e1, -⟩ := idx_facts t
  unfold iblk1
  rw [View.read_apply]
  show V c main_arg1 (((cfg1.win 0).blk t).view.emb (ix2 y k)) = V c main_arg1 (ix2 i k)
  refine congrArg (V c main_arg1) (funext fun a => Fin.ext ?_)
  match a with
  | ⟨0, _⟩ => show win1_0.index t (0 : Fin 2) * 200 + 1 * y.val = i.val; rw [e0, hi]; omega
  | ⟨1, _⟩ => show win1_0.index t (1 : Fin 2) * 10000 + 1 * k.val = k.val; rw [e1]; omega

/-- What point t writes back is block t of the whole function. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S200x10000) hz, View.ld_unit_zero (S := S10000x128) hz]
  rw [pay_eq, iblk_b]
  obtain ⟨-, -, -, -, e0, e1⟩ := idx_facts t
  have hN : cfg1.N = 50 := N_1
  funext j
  obtain ⟨y, q, rfl⟩ : ∃ (y : Fin 200) (q : Fin 128), j = ix2 y q := ⟨j 0, j 1, eq_ix2 j⟩
  have hlt : t.val * 200 + y.val < 10000 := by have := t.isLt; have := y.isLt; omega
  have hemb : ((cfg1.win 2).blk t).view.emb (ix2 y q) = ix2 (⟨t.val * 200 + y.val, hlt⟩ : Fin 10000) q := by
    funext a; apply Fin.ext
    match a with
    | ⟨0, _⟩ => show win1_2.index t (0 : Fin 2) * 200 + 1 * y.val = t.val * 200 + y.val; rw [e0]; omega
    | ⟨1, _⟩ => show win1_2.index t (1 : Fin 2) * 128 + 1 * q.val = q.val; rw [e1]; omega
  show scaled (iblk1 V c 0 t) (V c main_v52) (ix2 y q) = whole V c (((cfg1.win 2).blk t).view.emb (ix2 y q))
  rw [hemb]
  exact scaled_rows _ _ _ y ⟨t.val * 200 + y.val, hlt⟩ (fun k => iblk_x V c t y k _ rfl) q

theorem mem_blk (t : Fin cfg1.N) (i : S10000x128.Idx) :
    i ∈ ((cfg1.win 2).blk t).view.set ↔ ∀ a : Fin 2, win1_2.index t a * S200x128.size a ≤ (i a).val ∧ (i a).val < win1_2.index t a * S200x128.size a + S200x128.size a := by
  show i ∈ ((View.whole main_v53).slice (win1_2.rect t)).set ↔ _
  rw [View.set_slice_whole, Rect.mem_set_unit]
  exact Iff.rfl

/-- The output array after the region. -/
theorem final (c : Dev nD) : (dat1 V c).arrAt 2 cfg1.N = whole V c :=
  (dat1 V c).arrAt_eq_of_cover 2 (whole V c) (fun t _ => flushed_eq V c t) fun i => by
    have hN : cfg1.N = 50 := N_1
    have hi0 : (i 0).val < 10000 := (i 0).isLt
    have hi1 : (i 1).val < 128 := (i 1).isLt
    refine ⟨⟨(i 0).val / 200, by rw [hN]; omega⟩, flush1_2 _, ?_⟩
    rw [mem_blk]
    obtain ⟨-, -, -, -, e0, e1⟩ := idx_facts ⟨(i 0).val / 200, by rw [hN]; omega⟩
    intro a
    match a with
    | ⟨0, _⟩ =>
      show win1_2.index _ (0 : Fin 2) * 200 ≤ (i 0).val ∧ (i 0).val < win1_2.index _ (0 : Fin 2) * 200 + 200
      rw [e0]; dsimp only; omega
    | ⟨1, _⟩ =>
      show win1_2.index _ (1 : Fin 2) * 128 ≤ (i 1).val ∧ (i 1).val < win1_2.index _ (1 : Fin 2) * 128 + 128
      rw [e1]; omega

end Cert.KernelIdeal.Z2

end
-- ==== Proof.LibTypedRefs.lean ====
/-
  A typed reference to a buffer carries contents to the buffer's own type and back along the equation between the two
  types; carried there and back they are unchanged. Nothing here mentions a program.
-/
import Idealize.ShloMosaic.Lib.StableHlo

namespace Cert.Lib.TypedRefs

open Idealize.ShloMosaic Idealize.ShloMosaic.StableHlo

variable {sig : RefSig} {Val : EltTy → Type}

/-- Contents carried to a buffer's own type and back are unchanged. -/
theorem ofBuf_toBuf {T : BufTy} (x : TRef sig T) (v : T.Contents Val) : x.ofBuf (x.toBuf v) = v := by
  obtain ⟨r, h, _, _⟩ := x
  subst h
  rfl

end Cert.Lib.TypedRefs
-- ==== Proof.LibPaddedProduct.lean ====
/-
  A product with zero columns appended to its right operand, then rows divided by their Euclidean length.

  If the k×n' array B' has the k×n array B as its first n columns and zeros in the others, X·B' has X·B as its first n
  columns and zeros in the others (x · 0 = 0 on the extended reals, whatever x), so a row of X·B' has the same sum of
  squares as the row of X·B, and the first n columns of the scaled X·B' are the scaled X·B. Nothing here mentions a
  program.
-/
import proofs.«154797_j26414048870608_1_alg».proof.Proof.LibMatProd
import proofs.«154797_j26414048870608_1_alg».proof.Proof.LibL2Rows

open scoped BigOperators

noncomputable section

namespace Cert.Lib.PaddedProduct

open Idealize.ShloMosaic Idealize.ShloMosaic.ValueIdx Cert.Lib.MatProd Cert.Lib.L2Rows

variable {r k n n' : Nat}

theorem l2scale_matProd_pad (hb : n ≤ n') (eps c : EReal) (X : (⟨2, ![r, k]⟩ : Shape).Idx → EReal)
    (B : (⟨2, ![k, n]⟩ : Shape).Idx → EReal) (B' : (⟨2, ![k, n']⟩ : Shape).Idx → EReal)
    (h1 : ∀ (j : Fin k) (q : Fin n), B' (ix2 j (Fin.castLE hb q)) = B (ix2 j q))
    (h0 : ∀ (j : Fin k) (q : Fin n'), n ≤ q.val → B' (ix2 j q) = 0) (p : Fin r) (q : Fin n) :
    l2scale eps c (matProd X B') (ix2 p (Fin.castLE hb q)) = l2scale eps c (matProd X B) (ix2 p q) := by
  refine l2scale_pad hb eps c _ _ p (fun q' => ?_) (fun q' hq' => ?_) q
  · rw [matProd_apply, matProd_apply]
    exact Finset.sum_congr rfl fun j _ => by rw [h1 j q']
  · rw [matProd_apply]
    exact Finset.sum_eq_zero fun j _ => by rw [h0 j q' hq', mul_zero]

end Cert.Lib.PaddedProduct

end
-- ==== Proof.LibScatterSet.lean ====
/-
  A scatter whose body returns the update (`x.at[…].set(v)`), read at one index of its result.

  The host's scatter is a left fold over the update indices in row-major order, each step overwriting the
  element the update index lands on.  When every update index `j` lands inside the operand, at `emb j`, and
  `emb` is injective, the fold read at one element is decided by whether some update lands there: the element
  `emb j` ends at the update's element `j`, and an element no update lands on keeps the operand's value.
-/
import Idealize.ShloMosaic.PureOps.ShapeOps

namespace Idealize.ShloMosaic.ScatterSet

open Idealize.ShloMosaic

variable {ι κ α : Type} [DecidableEq κ]

/-- One step of an overwriting fold: element `e n` becomes `v n`, the others stay. -/
def step (e : ι → κ) (v : ι → α) (r : κ → α) (n : ι) : κ → α :=
  fun i' => if i' = e n then v n else r i'

/-- An element that no index of the list lands on keeps its initial value. -/
theorem foldl_step_miss (e : ι → κ) (v : ι → α) (i : κ) :
    ∀ (l : List ι) (x : κ → α), (∀ n ∈ l, e n ≠ i) → l.foldl (step e v) x i = x i := by
  intro l
  induction l with
  | nil => intro x _; rfl
  | cons a l ih =>
    intro x h
    rw [List.foldl_cons, ih _ (fun n hn => h n (List.mem_cons_of_mem _ hn))]
    unfold step
    rw [if_neg (fun hi => h a (List.mem_cons_self ..) hi.symm)]

/-- The element an index of a duplicate-free list lands on ends at that index's value, when the landing map is
    injective. -/
theorem foldl_step_hit (e : ι → κ) (he : Function.Injective e) (v : ι → α) (n0 : ι) :
    ∀ (l : List ι) (x : κ → α), l.Nodup → n0 ∈ l → l.foldl (step e v) x (e n0) = v n0 := by
  intro l
  induction l with
  | nil => intro x _ h; exact absurd h (List.not_mem_nil)
  | cons a l ih =>
    intro x hnd hmem
    rw [List.foldl_cons]
    rcases List.mem_cons.mp hmem with rfl | hl
    · rw [foldl_step_miss e v (e n0) l _ (fun n hn hne => (List.nodup_cons.mp hnd).1 (he hne ▸ hn))]
      unfold step
      rw [if_pos rfl]
    · exact ih _ (List.nodup_cons.mp hnd).2 hl

variable {s si u : Shape} {w : Nat}

/-- The overwriting scatter as the fold of `step`, when every update index lands inside the operand, at `emb`. -/
theorem scatter_eq_foldl (d : ScatterDims s si u) (x : s.Idx → α) (idx : IVec si w) (upd : u.Idx → α)
    (emb : u.Idx → s.Idx) (hemb : ∀ j, d.resultIdx? j idx = some (emb j)) :
    Host.scatter d (fun _ b => b) x idx upd
      = (List.finRange u.numel).foldl (step (fun n => emb (u.rowMajor.symm n)) (fun n => upd (u.rowMajor.symm n))) x := by
  unfold Host.scatter
  congr 1
  funext r n
  rw [hemb]
  rfl

/-- The element update index `j` lands on ends at the update's element `j`. -/
theorem scatter_at_emb (d : ScatterDims s si u) (x : s.Idx → α) (idx : IVec si w) (upd : u.Idx → α)
    (emb : u.Idx → s.Idx) (hemb : ∀ j, d.resultIdx? j idx = some (emb j)) (hinj : Function.Injective emb) (j : u.Idx) :
    Host.scatter d (fun _ b => b) x idx upd (emb j) = upd j := by
  rw [scatter_eq_foldl d x idx upd emb hemb]
  have h := foldl_step_hit (fun n => emb (u.rowMajor.symm n)) (fun a b hab => u.rowMajor.symm.injective (hinj hab))
    (fun n => upd (u.rowMajor.symm n)) (u.rowMajor j) (List.finRange u.numel) x (List.nodup_finRange _) (List.mem_finRange _)
  simpa using h

/-- An element no update index lands on keeps the operand's value. -/
theorem scatter_off_emb (d : ScatterDims s si u) (x : s.Idx → α) (idx : IVec si w) (upd : u.Idx → α)
    (emb : u.Idx → s.Idx) (hemb : ∀ j, d.resultIdx? j idx = some (emb j)) (i : s.Idx) (hoff : ∀ j, emb j ≠ i) :
    Host.scatter d (fun _ b => b) x idx upd i = x i := by
  rw [scatter_eq_foldl d x idx upd emb hemb]
  exact foldl_step_miss _ _ i _ x (fun n _ => hoff _)

end Idealize.ShloMosaic.ScatterSet
-- ==== Proof.LibScatterTopRows.lean ====
/-
  An overwriting scatter of the first rows of an array.

  The operand is n0×n1, the update m0×n1 with m0 ≤ n0; both update axes are window axes, no operand axis is inserted,
  and the one start-index component (for the row axis) is read off an index array that holds zero. So the one window
  starts at the origin: update index (p, q) lands on operand index (p, q). With a body that returns the update
  (jnp's zeros(...).at[:m0, :].set(u)), the first m0 rows of the result are the update and the others keep the
  operand. Nothing here mentions a program.
-/
import Idealize.ShloMosaic.Lib.ValueIdx
import proofs.«154797_j26414048870608_1_alg».proof.Proof.LibScatterSet

namespace Cert.Lib.ScatterTopRows

open Idealize.ShloMosaic Idealize.ShloMosaic.ValueIdx

variable {α : Type} {n0 n1 m0 w : Nat} {si : Shape}

/-- Update index j as an operand index: the same coordinates. -/
def emb (h : m0 ≤ n0) (j : (⟨2, ![m0, n1]⟩ : Shape).Idx) : (⟨2, ![n0, n1]⟩ : Shape).Idx :=
  ix2 (Fin.castLE h (j 0)) (j 1)

theorem emb_injective (h : m0 ≤ n0) : Function.Injective (emb (n1 := n1) h) := by
  intro j j' e
  have e0 : (emb h j 0).val = (emb h j' 0).val := by rw [e]
  have e1 : (emb h j 1).val = (emb h j' 1).val := by rw [e]
  funext a
  apply Fin.ext
  match a with
  | ⟨0, _⟩ => exact e0
  | ⟨1, _⟩ => exact e1

/-- The start of the window: zero on the row axis because the index array holds zero, zero on the column axis because
    no start-index component is for it. -/
theorem start_eq_zero (d : ScatterDims (⟨2, ![n0, n1]⟩ : Shape) si (⟨2, ![m0, n1]⟩ : Shape))
    (hs : d.scatterDimsToOperandDims = [0]) (j : (⟨2, ![m0, n1]⟩ : Shape).Idx) (idx : IVec si w)
    (hidx : ∀ k, (idx k).toInt = 0) (a : Fin 2) : d.start j idx a = 0 := by
  unfold ScatterDims.start
  split
  · exact hidx _
  · rfl

/-- Both axes are window axes, in order, and none is inserted: the window coordinate on an axis is the update
    index's coordinate on that axis. -/
theorem window_eq (d : ScatterDims (⟨2, ![n0, n1]⟩ : Shape) si (⟨2, ![m0, n1]⟩ : Shape))
    (hu : d.updateWindowDims = [0, 1]) (hi : d.insertedWindowDims = [])
    (j : (⟨2, ![m0, n1]⟩ : Shape).Idx) (a : Fin 2) : d.window j a = (j a).val := by
  obtain ⟨uw, iw, sd, iv, wf⟩ := d
  dsimp only at hu hi
  subst hu hi
  unfold ScatterDims.window
  match a with
  | ⟨0, _⟩ => rfl
  | ⟨1, _⟩ => rfl

/-- Update index j lands on operand index j. -/
theorem resultIdx?_eq (h : m0 ≤ n0) (d : ScatterDims (⟨2, ![n0, n1]⟩ : Shape) si (⟨2, ![m0, n1]⟩ : Shape))
    (hu : d.updateWindowDims = [0, 1]) (hi : d.insertedWindowDims = []) (hs : d.scatterDimsToOperandDims = [0])
    (idx : IVec si w) (hidx : ∀ k, (idx k).toInt = 0) (j : (⟨2, ![m0, n1]⟩ : Shape).Idx) :
    d.resultIdx? j idx = some (emb h j) := by
  have hsum : ∀ a : Fin 2, d.start j idx a + (d.window j a : Int) = ((j a).val : Int) := fun a => by
    rw [start_eq_zero d hs j idx hidx, window_eq d hu hi, zero_add]
  have hlt : ∀ a : Fin 2, (j a).val < (⟨2, ![n0, n1]⟩ : Shape).size a := fun a => by
    match a with
    | ⟨0, _⟩ => exact lt_of_lt_of_le (j 0).isLt h
    | ⟨1, _⟩ => exact (j 1).isLt
  unfold ScatterDims.resultIdx?
  rw [dif_pos (fun a => by rw [hsum a]; exact ⟨Int.natCast_nonneg _, by exact_mod_cast hlt a⟩)]
  congr 1
  funext a
  apply Fin.ext
  show (d.start j idx a + (d.window j a : Int)).toNat = (emb h j a).val
  rw [hsum a, Int.toNat_natCast]
  match a with
  | ⟨0, _⟩ => rfl
  | ⟨1, _⟩ => rfl

/-- The scattered array at (p, q): the update's entry when p < m0, the operand's otherwise. -/
theorem scatter_apply (h : m0 ≤ n0) (d : ScatterDims (⟨2, ![n0, n1]⟩ : Shape) si (⟨2, ![m0, n1]⟩ : Shape))
    (hu : d.updateWindowDims = [0, 1]) (hi : d.insertedWindowDims = []) (hs : d.scatterDimsToOperandDims = [0])
    (x : (⟨2, ![n0, n1]⟩ : Shape).Idx → α) (idx : IVec si w) (hidx : ∀ k, (idx k).toInt = 0)
    (upd : (⟨2, ![m0, n1]⟩ : Shape).Idx → α) (p : Fin n0) (q : Fin n1) :
    Host.scatter d (fun _ b => b) x idx upd (ix2 p q)
      = if hp : p.val < m0 then upd (ix2 ⟨p.val, hp⟩ q) else x (ix2 p q) := by
  split
  · rename_i hp
    have e : ix2 p q = emb h (ix2 (⟨p.val, hp⟩ : Fin m0) q) := by
      funext a; apply Fin.ext
      match a with
      | ⟨0, _⟩ => rfl
      | ⟨1, _⟩ => rfl
    rw [e]
    exact ScatterSet.scatter_at_emb d x idx upd (emb h) (resultIdx?_eq h d hu hi hs idx hidx) (emb_injective h) _
  · rename_i hp
    refine ScatterSet.scatter_off_emb d x idx upd (emb h) (resultIdx?_eq h d hu hi hs idx hidx) _ fun j e => hp ?_
    have e0 : (emb h j 0).val = p.val := by rw [e]; rfl
    have : (j 0).val = p.val := e0
    rw [← this]; exact (j 0).isLt

end Cert.Lib.ScatterTopRows
-- ==== Proof.Z2Bridge.lean ====
/-
  The second region's right operand and the slice of its output that the decode reads.

  The right operand is the 2×10000 weight array written into the first two rows of a 128×10000 array of zeros,
  transposed: column q of it is row q of the weights for q < 2, and zero otherwise. So the product with it has the
  product with the transposed weights as its first two columns and zero columns after them, the zero columns add
  nothing to a row's sum of squares, and the first two columns of the region's output — what the slice takes — are the
  10000×2 scaled product with the transposed weights.
-/
import proofs.«154797_j26414048870608_1_alg».proof.Proof.Z2Value
import proofs.«154797_j26414048870608_1_alg».proof.Proof.LibPaddedProduct
import proofs.«154797_j26414048870608_1_alg».proof.Proof.LibScatterTopRows
import proofs.«154797_j26414048870608_1_alg».proof.Proof.LibRowVector
import Idealize.ShloMosaic.Lib.Pipeline.Value

set_option maxRecDepth 16384

noncomputable section

namespace Cert.KernelIdeal.Z2

open Cert.KernelIdeal Cert.KernelIdeal.Gen
open Idealize.ShloMosaic Idealize.ShloMosaic.ValueIdx
open Cert.Lib.MatProd Cert.Lib.L2Rows

/-- The 128×10000 array of zeros with the weights written into its first two rows. -/
abbrev padded (x6 : FVec Ideal S2x10000 .f32) : FVec Ideal S128x10000 .f32 :=
  Host.scatter scatter_S128x10000_S1_S2x10000_01_n_0_0 (fun _ b => b)
    (broadcastInDim S128x10000 _ bcast_S_S128x10000 (constant (F := Ideal) S_ .f32 0x00000000#32))
    (broadcastInDim S1 _ bcast_S_S1 (constantI S_ 32 0#32)) x6

/-- Row p of the padded array: row p of the weights for p < 2, zeros otherwise. -/
theorem padded_apply (x6 : FVec Ideal S2x10000 .f32) (p : Fin 128) (j : Fin 10000) :
    padded x6 (ix2 p j) = if hp : p.val < 2 then x6 (ix2 ⟨p.val, hp⟩ j) else 0 := by
  unfold padded
  rw [Cert.Lib.ScatterTopRows.scatter_apply (by decide : 2 ≤ 128) scatter_S128x10000_S1_S2x10000_01_n_0_0 rfl rfl rfl _ _
    (fun k => by rw [Cert.Lib.RowVector.bcastInDim_scalar_apply]; rfl)]
  split
  · rfl
  · rw [Cert.Lib.RowVector.bcastInDim_scalar_apply]
    exact Ideal.ofBits_zero_f32

/-- The right operand the region loads: the padded array transposed (a change of float format is the identity). -/
abbrev operand (x6 : FVec Ideal S2x10000 .f32) : FVec Ideal S10000x128 .bf16 :=
  truncf .bf16 (transpose S10000x128 [1, 0] (padded x6) transposes_S128x10000_S10000x128_1_0) bitsLt_bf16_f32

theorem operand_apply (x6 : FVec Ideal S2x10000 .f32) (j : Fin 10000) (q : Fin 128) :
    operand x6 (ix2 j q) = padded x6 (ix2 q j) := by
  unfold operand
  rw [truncf_apply]
  exact transpose_apply [1, 0] (padded x6) transposes_S128x10000_S10000x128_1_0 (ix2 j q) (ix2 q j) fun b =>
    match b with
    | ⟨0, _⟩ => rfl
    | ⟨1, _⟩ => rfl

/-- The first two columns of the region's output are the scaled product with the transposed weights. -/
theorem slice_scaled (x1 : FVec Ideal S10000x10000 .f32) (x6 : FVec Ideal S2x10000 .f32)
    (h2 : S2x10000.Transposes [1, 0] S10000x2) :
    extractStridedSlice S10000x2 ![0, 0] (scaled (r := 10000) (k := 10000) (n := 128) x1 (operand x6))
      slices_S10000x128_S10000x2_0_0
      = scaled (r := 10000) (k := 10000) (n := 2) x1 (transpose S10000x2 [1, 0] x6 h2) := by
  funext i
  obtain ⟨p, q, rfl⟩ : ∃ (p : Fin 10000) (q : Fin 2), i = ix2 p q := ⟨i 0, i 1, eq_ix2 i⟩
  rw [extractStridedSlice_apply ![0, 0] _ slices_S10000x128_S10000x2_0_0 (ix2 p q)
    (ix2 p (Fin.castLE (by decide : 2 ≤ 128) q)) (fun a => by
      match a with
      | ⟨0, _⟩ => show p.val = 0 + p.val; omega
      | ⟨1, _⟩ => show q.val = 0 + q.val; omega)]
  unfold scaled
  refine Cert.Lib.PaddedProduct.l2scale_matProd_pad (by decide : 2 ≤ 128) _ _ x1 _ _ (fun j q' => ?_) (fun j q' hq' => ?_) p q
  · rw [operand_apply, padded_apply, dif_pos (show (Fin.castLE (by decide : 2 ≤ 128) q').val < 2 from q'.isLt)]
    exact (transpose_apply [1, 0] x6 h2 (ix2 j q') (ix2 q' j) fun b =>
      match b with
      | ⟨0, _⟩ => rfl
      | ⟨1, _⟩ => rfl).symm
  · rw [operand_apply, padded_apply, dif_neg (by omega)]

end Cert.KernelIdeal.Z2

end
-- ==== Proof.LibConcatCongr.lean ====
/-
  Concatenations with equal operands are equal. A concatenation takes, beside its list of operands, a proof about the
  operands' shapes, so a rewriting pass does not enter the operands by itself; these two congruences (two operands, four
  operands) let it. Nothing here mentions a program.
-/
import Idealize.ShloMosaic.Lib.Pipeline.Value

namespace Cert.Lib.ConcatCongr

open Idealize.ShloMosaic

/-- Two-operand concatenations with equal operands are equal. -/
theorem concatenate_pair_congr {α : Type} {t s₁ s₂ : Shape} (a : Fin t.rank) (x₁ : s₁.Idx → α) (x₂ : s₂.Idx → α)
    {x₁' : s₁.Idx → α} {x₂' : s₂.Idx → α}
    (h : Shape.Concatenates (([⟨s₁, x₁⟩, ⟨s₂, x₂⟩] : List ((s : Shape) × (s.Idx → α))).map (·.1)) t a)
    (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- Four-operand concatenations with equal operands are equal. -/
theorem concatenate_quad_congr {α : Type} {t s₁ s₂ s₃ s₄ : Shape} (a : Fin t.rank)
    (x₁ : s₁.Idx → α) (x₂ : s₂.Idx → α) (x₃ : s₃.Idx → α) (x₄ : s₄.Idx → α)
    {x₁' : s₁.Idx → α} {x₂' : s₂.Idx → α} {x₃' : s₃.Idx → α} {x₄' : s₄.Idx → α}
    (h : Shape.Concatenates (([⟨s₁, x₁⟩, ⟨s₂, x₂⟩, ⟨s₃, x₃⟩, ⟨s₄, x₄⟩] : List ((s : Shape) × (s.Idx → α))).map (·.1)) t a)
    (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h
      = concatenate t a [⟨s₁, x₁'⟩, ⟨s₂, x₂'⟩, ⟨s₃, x₃'⟩, ⟨s₄, x₄'⟩] h := by
  subst e₁ e₂ e₃ e₄; rfl

end Cert.Lib.ConcatCongr
-- ==== Proof.KernelBounds.lean ====
/-
  The idealized kernel program's buffers at the boundaries of its segments, read back to the launch memory.
-/
import proofs.«154797_j26414048870608_1_alg».proof.Proof.KernelRun
import proofs.«154797_j26414048870608_1_alg».proof.Proof.XwValue
import proofs.«154797_j26414048870608_1_alg».proof.Proof.Z2Value
import proofs.«154797_j26414048870608_1_alg».proof.Proof.LibTypedRefs
import proofs.«154797_j26414048870608_1_alg».proof.Proof.Z2Bridge
import proofs.«154797_j26414048870608_1_alg».proof.Proof.LibRowVector
import proofs.«154797_j26414048870608_1_alg».proof.Proof.LibConcatCongr
import Idealize.ShloMosaic.Lib.StableHlo.Run

set_option maxRecDepth 16384

noncomputable section

namespace Cert.KernelIdeal.Bounds

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

attribute [local congr] Cert.Lib.ConcatCongr.concatenate_pair_congr

/-- One rewriting pass through the stretches of host operations: each operation's result at its own buffer is its
    function of its operands' contents, and every other buffer is as before. -/
local macro "fold_simp" "[" ls:Lean.Parser.Tactic.simpLemma,* "]" : tactic =>
  `(tactic| simp (disch := decide) only [hostOps2, hostOps1_2, hostOps1_1, hostOps1, hostOps0, W5, W4, W3, W1, V5, V1,
      after_cons, after_nil,
      nullary_result', unary_result', binary_result', ternary_result', quaternary_result', reshape_result', nary4_result',
      nary_result', unaryIndexed_result', binaryIndexed_result',
      nullary_result_ne', unary_result_ne', binary_result_ne', ternary_result_ne', quaternary_result_ne', reshape_result_ne',
      nary_result_ne', unaryIndexed_result_ne', binaryIndexed_result_ne', Cert.Lib.TypedRefs.ofBuf_toBuf, $ls,*])

/-! ## Across the first region -/

/-- A buffer that is none of the first region's arrays is as the region found it. -/
theorem W2_keep (c : Dev nD) {r : Ref sig .tc} (h : ∀ w, Pipeline.arrRef spec0 w ≠ r) :
    W2 m ρ c (no_index (Proc.devRef .tc r)) = W1 m ρ c (Proc.devRef .tc r) := W2_of_ne m ρ c r h

theorem W2_arg0 (c : Dev nD) : W2 m ρ c (no_index (Proc.devRef .tc main_arg0)) = W1 m ρ c (Proc.devRef .tc main_arg0) :=
  (W2_arr m ρ c 0).trans (((dat0 (V1 m ρ) c).arrAt_in 0 rfl _).trans (A_eq0 (V1 m ρ) c 0))
theorem W2_arg2 (c : Dev nD) : W2 m ρ c (no_index (Proc.devRef .tc main_arg2)) = W1 m ρ c (Proc.devRef .tc main_arg2) :=
  (W2_arr m ρ c 1).trans (((dat0 (V1 m ρ) c).arrAt_in 1 rfl _).trans (A_eq0 (V1 m ρ) c 1))
theorem W2_v0 (c : Dev nD) : W2 m ρ c (no_index (Proc.devRef .tc main_v0)) = W1 m ρ c (Proc.devRef .tc main_v0) :=
  (W2_arr m ρ c 2).trans (((dat0 (V1 m ρ) c).arrAt_in 2 rfl _).trans (A_eq0 (V1 m ρ) c 2))
theorem W2_arg4 (c : Dev nD) : W2 m ρ c (no_index (Proc.devRef .tc main_arg4)) = W1 m ρ c (Proc.devRef .tc main_arg4) :=
  (W2_arr m ρ c 3).trans (((dat0 (V1 m ρ) c).arrAt_in 3 rfl _).trans (A_eq0 (V1 m ρ) c 3))
/-- The first region's output array: the layer of the arrays as the region found them. -/
theorem W2_v1 (c : Dev nD) : W2 m ρ c (no_index (Proc.devRef .tc main_v1)) = Xw.whole (V1 m ρ) c :=
  (W2_arr m ρ c 4).trans (Xw.final (V1 m ρ) c)

/-! ## Across the second region -/

theorem W6_keep (c : Dev nD) {r : Ref sig .tc} (h : ∀ w, Pipeline.arrRef spec1 w ≠ r) :
    W6 m ρ c (no_index (Proc.devRef .tc r)) = W5 m ρ c (Proc.devRef .tc r) := W6_of_ne m ρ c r h

theorem W6_arg1 (c : Dev nD) : W6 m ρ c (no_index (Proc.devRef .tc main_arg1)) = W5 m ρ c (Proc.devRef .tc main_arg1) :=
  (W6_arr m ρ c 0).trans (((dat1 (V5 m ρ) c).arrAt_in 0 rfl _).trans (A_eq1 (V5 m ρ) c 0))
theorem W6_v52 (c : Dev nD) : W6 m ρ c (no_index (Proc.devRef .tc main_v52)) = W5 m ρ c (Proc.devRef .tc main_v52) :=
  (W6_arr m ρ c 1).trans (((dat1 (V5 m ρ) c).arrAt_in 1 rfl _).trans (A_eq1 (V5 m ρ) c 1))
theorem W6_v53 (c : Dev nD) : W6 m ρ c (no_index (Proc.devRef .tc main_v53)) = Z2.whole (V5 m ρ) c :=
  (W6_arr m ρ c 2).trans (Z2.final (V5 m ρ) c)

/-! ## The regions' arrays, read back to the launch memory -/

theorem W1_arg0 (c : Dev nD) : W1 m ρ c (Proc.devRef .tc main_arg0) = m ((c : Thread nD τ).loc main_arg0) := by
  show StableHlo.after hostOps0 (W0 m ρ c) (Proc.devRef .tc main_arg0) = _
  fold_simp []
theorem W1_arg2 (c : Dev nD) : W1 m ρ c (Proc.devRef .tc main_arg2) = m ((c : Thread nD τ).loc main_arg2) := by
  show StableHlo.after hostOps0 (W0 m ρ c) (Proc.devRef .tc main_arg2) = _
  fold_simp []
theorem W1_arg4 (c : Dev nD) : W1 m ρ c (Proc.devRef .tc main_arg4) = m ((c : Thread nD τ).loc main_arg4) := by
  show StableHlo.after hostOps0 (W0 m ρ c) (Proc.devRef .tc main_arg4) = _
  fold_simp []
/-- The bias vector re-shaped to a row. -/
theorem W1_v0 (c : Dev nD) :
    W1 m ρ c (Proc.devRef .tc main_v0) = Cert.Lib.RowVector.asRow (m ((c : Thread nD τ).loc main_arg3) : S128.Idx → EReal) := by
  show StableHlo.after hostOps0 (W0 m ρ c) (Proc.devRef .tc main_v0) = _
  fold_simp []
  exact Cert.Lib.RowVector.shapeCast_eq_asRow _ _

/-- The first region's output: the layer of the launch arrays. -/
theorem W2_v1_launch (c : Dev nD) : W2 m ρ c (no_index (Proc.devRef .tc main_v1))
    = Xw.layer (r := 10000) (m ((c : Thread nD τ).loc main_arg0)) (m ((c : Thread nD τ).loc main_arg2))
        (Cert.Lib.RowVector.asRow (m ((c : Thread nD τ).loc main_arg3) : S128.Idx → EReal)) (m ((c : Thread nD τ).loc main_arg4)) := by
  refine (W2_v1 m ρ c).trans ?_
  show Xw.layer (W1 m ρ c (Proc.devRef .tc main_arg0)) (W1 m ρ c (Proc.devRef .tc main_arg2))
    (W1 m ρ c (Proc.devRef .tc main_v0)) (W1 m ρ c (Proc.devRef .tc main_arg4)) = _
  rw [W1_arg0, W1_arg2, W1_v0, W1_arg4]

theorem W5_arg1 (c : Dev nD) : W5 m ρ c (Proc.devRef .tc main_arg1) = m ((c : Thread nD τ).loc main_arg1) := by
  show StableHlo.after hostOps1_2 (StableHlo.after hostOps1_1 (StableHlo.after hostOps1 (W2 m ρ c))) (Proc.devRef .tc main_arg1) = _
  fold_simp [W2_keep]
/-- The second region's right operand: the weights padded with zero rows, transposed. -/
theorem W5_v52 (c : Dev nD) : W5 m ρ c (Proc.devRef .tc main_v52) = Z2.operand (m ((c : Thread nD τ).loc main_arg6)) := by
  show StableHlo.after hostOps1_2 (StableHlo.after hostOps1_1 (StableHlo.after hostOps1 (W2 m ρ c))) (Proc.devRef .tc main_v52) = _
  fold_simp [W2_keep]

/-- The second region's output: the scaled product of the launch arrays. -/
theorem W6_v53_launch (c : Dev nD) : W6 m ρ c (no_index (Proc.devRef .tc main_v53))
    = Z2.scaled (r := 10000) (k := 10000) (n := 128) (m ((c : Thread nD τ).loc main_arg1))
        (Z2.operand (m ((c : Thread nD τ).loc main_arg6))) := by
  refine (W6_v53 m ρ c).trans ?_
  show Z2.scaled (W5 m ρ c (Proc.devRef .tc main_arg1)) (W5 m ρ c (Proc.devRef .tc main_v52)) = _
  rw [W5_arg1, W5_v52]

theorem h2 : S2x10000.Transposes [1, 0] S10000x2 := by decide

/-- The slice of the second region's output that the decode reads: the 10000×2 scaled product with the transposed
    weights. -/
theorem slice_v53 (x1 : FVec Ideal S10000x10000 .f32) (x6 : FVec Ideal S2x10000 .f32) :
    extractStridedSlice S10000x2 ![0, 0] (Z2.scaled (r := 10000) (k := 10000) (n := 128) x1 (Z2.operand x6))
      slices_S10000x128_S10000x2_0_0
      = Z2.scaled (r := 10000) (k := 10000) (n := 2) x1 (transpose S10000x2 [1, 0] x6 h2) :=
  Z2.slice_scaled x1 x6 h2

end Cert.KernelIdeal.Bounds

end
-- ==== Proof.RefForms.lean ====
/-
  The reference's spellings of the two normalised layers, on the extended reals.

  The reference computes (X·W2ᵀ + b2 with rows divided by max(their Euclidean length, eps), times 1.8)·Wgᵀ with two
  dot_generals around a row reduction and broadcasts, and the 10000×2 array X2·W22ᵀ with rows divided by
  max(their length, eps), times 0.8, the same way. Both are the whole-array functions the kernel regions' outputs are
  stated with.
-/
import proofs.«154797_j26414048870608_1_alg».proof.ReferenceIdeal
import proofs.«154797_j26414048870608_1_alg».proof.Proof.Gen.ReferenceIdeal
import proofs.«154797_j26414048870608_1_alg».proof.Proof.XwValue
import proofs.«154797_j26414048870608_1_alg».proof.Proof.Z2Value
import proofs.«154797_j26414048870608_1_alg».proof.Proof.LibRowVector

set_option maxRecDepth 16384

noncomputable section

namespace Cert.Bridge

open Idealize.ShloMosaic Idealize.ShloMosaic.ValueIdx
open Cert.Lib.MatProd Cert.Lib.L2Rows Cert.Lib.NormLayer Cert.Lib.RowVector
open Cert.ReferenceIdeal Cert.ReferenceIdeal.Gen

/-- The reference's hidden activations before the row scaling: X·W2ᵀ plus the bias broadcast down the rows. -/
abbrev hostHidden (x0 : FVec Ideal S10000x512 .f32) (x2 : FVec Ideal S128x512 .f32) (x3 : FVec Ideal S128 .f32) :
    FVec Ideal S10000x128 .f32 :=
  addf (Host.dotGeneral dot_S10000x512_S512x128_S10000x128_1_0_0_1_n_n none x0
      (transpose S512x128 [1, 0] x2 transposes_S128x512_S512x128_1_0))
    (broadcastInDim S10000x128 _ bcast_S1x128_S10000x128_0_1 (broadcastInDim S1x128 _ bcast_S128_S1x128_1 x3))

/-- The reference's first layer is the kernel region's whole-array function, the bias vector as a row. -/
theorem host_layer (x0 : FVec Ideal S10000x512 .f32) (x2 : FVec Ideal S128x512 .f32) (x3 : FVec Ideal S128 .f32)
    (x4 : FVec Ideal S128x128 .f32) :
    Host.dotGeneral dot_S10000x128_S128x128_S10000x128_1_0_0_1_n_n none
      (mulf (Host.divf (hostHidden x0 x2 x3)
          (broadcastInDim S10000x128 _ bcast_S10000x1_S10000x128_0_1
            (maximumf (Host.sqrt (broadcastInDim S10000x1 _ bcast_S10000_S10000x1_0
                (Host.reduceAdd (mulf (hostHidden x0 x2 x3) (hostHidden x0 x2 x3)) (constant (F := Ideal) S_ .f32 0x00000000#32)
                  reducesTo_S10000x128_S10000_d1 h_S_)))
              (broadcastInDim S10000x1 _ bcast_S_S10000x1 (constant (F := Ideal) S_ .f32 0x2B8CBCCC#32)))))
        (broadcastInDim S10000x128 _ bcast_S_S10000x128 (constant (F := Ideal) S_ .f32 0x3FE66666#32)))
      (transpose S128x128 [1, 0] x4 transposes_S128x128_S128x128_1_0)
    = Cert.KernelIdeal.Xw.layer (r := 10000) x0 x2 (asRow x3) x4 := by
  unfold Cert.KernelIdeal.Xw.layer normLayer
  have hH : hostHidden x0 x2 x3 = addRow (matProd x0 (transpose S512x128 [1, 0] x2 transposes_S128x512_S512x128_1_0)) (asRow x3) := by
    unfold hostHidden
    rw [host_addRow]
    exact congrArg (addRow · (asRow x3))
      (dotGeneral_eq_matProd dot_S10000x512_S512x128_S10000x128_1_0_0_1_n_n rfl rfl rfl rfl rfl rfl none .single _ _)
  rw [hH, Cert.Lib.L2Rows.host_eq]
  exact dotGeneral_eq_matProd dot_S10000x128_S128x128_S10000x128_1_0_0_1_n_n rfl rfl rfl rfl rfl rfl none .single _ _

/-- The reference's 10000×2 product before the row scaling. -/
abbrev hostZ (x1 : FVec Ideal S10000x10000 .f32) (x6 : FVec Ideal S2x10000 .f32) : FVec Ideal S10000x2 .f32 :=
  Host.dotGeneral dot_S10000x10000_S10000x2_S10000x2_1_0_0_1_n_n none x1
    (transpose S10000x2 [1, 0] x6 transposes_S2x10000_S10000x2_1_0)

/-- The reference's second normalised array is the scaled product with the transposed 2×10000 weights. -/
theorem host_scaled (x1 : FVec Ideal S10000x10000 .f32) (x6 : FVec Ideal S2x10000 .f32) :
    mulf (Host.divf (hostZ x1 x6)
        (broadcastInDim S10000x2 _ bcast_S10000x1_S10000x2_0_1
          (maximumf (Host.sqrt (broadcastInDim S10000x1 _ bcast_S10000_S10000x1_0
              (Host.reduceAdd (mulf (hostZ x1 x6) (hostZ x1 x6)) (constant (F := Ideal) S_ .f32 0x00000000#32)
                reducesTo_S10000x2_S10000_d1 h_S_)))
            (broadcastInDim S10000x1 _ bcast_S_S10000x1 (constant (F := Ideal) S_ .f32 0x2B8CBCCC#32)))))
      (broadcastInDim S10000x2 _ bcast_S_S10000x2 (constant (F := Ideal) S_ .f32 0x3F4CCCCD#32))
    = Cert.KernelIdeal.Z2.scaled (r := 10000) (k := 10000) (n := 2) x1
        (transpose S10000x2 [1, 0] x6 transposes_S2x10000_S10000x2_1_0) := by
  unfold Cert.KernelIdeal.Z2.scaled
  have hZ : hostZ x1 x6 = matProd x1 (transpose S10000x2 [1, 0] x6 transposes_S2x10000_S10000x2_1_0) :=
    dotGeneral_eq_matProd dot_S10000x10000_S10000x2_S10000x2_1_0_0_1_n_n rfl rfl rfl rfl rfl rfl none .single _ _
  rw [hZ, Cert.Lib.L2Rows.host_eq]

end Cert.Bridge

end
-- ==== Proof.Bridge.lean ====
/-
  The idealized kernel program and the idealized reference end with the same result.

  After the two regions' arrays are read as whole-array functions of the launch arrays, the kernel program's result is
  the composition of its host operations over those functions. The reference computes the same two arrays with host
  operations (the first layer as two products around the row scaling; the 10000×2 scaled product directly, where the
  kernel computes a 10000×128 one with 126 zero columns and slices it) and then applies the same operations. So the two
  results are one term of the launch arrays.
-/
import proofs.«154797_j26414048870608_1_alg».proof.Proof.KernelBounds
import proofs.«154797_j26414048870608_1_alg».proof.Proof.RefForms
import proofs.«154797_j26414048870608_1_alg».proof.Proof.RefRunPatched

set_option maxRecDepth 16384

noncomputable section

namespace Cert.Bridge

open Cert.KernelIdeal Cert.KernelIdeal.Gen Cert.KernelIdeal.Bounds
open Idealize.ShloMosaic Idealize.ShloMosaic.TcCoe Idealize.SL.Sem Idealize.ShloMosaic.StableHlo

attribute [local congr] Cert.Lib.ConcatCongr.concatenate_pair_congr

variable (m : (ℓ : Loc nD τ sig) → Buf (Elt Ideal) ℓ) (ρ : Dev nD → PrngReg)

-- The last step compares the two composed terms operation by operation; the operations themselves are never opened
-- (a scatter or a gather opened is a sum over hundreds of thousands of indices).
attribute [local irreducible] Host.scatterAdd Host.gather Host.reduceAdd Host.rsqrt Host.exp Host.negf Host.divf
  select cmpf cmpi addi mulf addf subf concatenate broadcastInDim extractStridedSlice shapeCast iotaInDim constant
  constantI transpose Cert.KernelIdeal.Xw.layer Cert.KernelIdeal.Z2.scaled Cert.Lib.RowVector.asRow

set_option maxHeartbeats 40000000 in
/-- The kernel program's result buffer at the last boundary, as a term of the launch arrays. -/
theorem result_eq (m' : (ℓ : Loc Cert.ReferenceIdeal.nD Cert.ReferenceIdeal.τ Cert.ReferenceIdeal.sig) → Buf (Elt Ideal) ℓ)
    (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    Cert.ReferenceIdeal.ValueP.res_main_v134 m' c = W7 m ρ c (Proc.devRef .tc main_v114) := by
  symm
  show StableHlo.after hostOps2 (W6 m ρ c) (Proc.devRef .tc main_v114) = _
  simp (disch := decide) only [hostOps2, hostOps1_2, hostOps1_1, hostOps1, hostOps0, W5, W4, W3, W1, V5, V1,
      after_cons, after_nil,
      nullary_result', unary_result', binary_result', ternary_result', quaternary_result', reshape_result', nary4_result',
      nary_result', unaryIndexed_result', binaryIndexed_result',
      nullary_result_ne', unary_result_ne', binary_result_ne', ternary_result_ne', quaternary_result_ne', reshape_result_ne',
      nary_result_ne', unaryIndexed_result_ne', binaryIndexed_result_ne', Cert.Lib.TypedRefs.ofBuf_toBuf,
      W2_keep, W2_arg0, W2_arg2, W2_v0, W2_arg4, W2_v1_launch, W6_keep, W6_arg1, W6_v52, W6_v53_launch, slice_v53]
  unfold Cert.ReferenceIdeal.ValueP.res_main_v134
  rw [h0, h1, h2, h3, h4, h5, h6, h7]
  rw [Cert.Bridge.host_layer, Cert.Bridge.host_scaled]
  rfl

end Cert.Bridge

end
-- ==== Proof.lean ====
/-
  The certificate's claim: the kernel program (as printed and idealized) and the idealized reference run to completion
  with their argument arrays unchanged, and at the ideal instance the kernel's idealization and the reference end with
  equal results.

  The kernel's two Pallas regions compute, block of rows by block of rows, two whole-array functions of the arguments:
  the layer (rows of X·W2ᵀ + b2 divided by their Euclidean length, times 1.8)·Wgᵀ, and the product of X2 with the
  weights padded by 126 zero columns, its rows divided by their length, times 0.8. The reference computes the first
  with two host products and the second as a 10000×2 array; the zero columns add nothing to a row's length, so the two
  columns the kernel's decode slices out are the reference's. Every other operation (the degree count, the symmetric
  normalisation, the scatter of messages, the edge-wise dot products and sigmoids) is the same host operation in both
  programs, applied to equal arrays.
-/
import proofs.«154797_j26414048870608_1_alg».proof.Defs
import proofs.«154797_j26414048870608_1_alg».proof.Proof.Gen.Kernel
import proofs.«154797_j26414048870608_1_alg».proof.Proof.Gen.Kernel.Skeleton
import proofs.«154797_j26414048870608_1_alg».proof.Proof.Gen.Kernel.Launch
import proofs.«154797_j26414048870608_1_alg».proof.Proof.Gen.Kernel.Points
import proofs.«154797_j26414048870608_1_alg».proof.Proof.Gen.Kernel.Frame
import proofs.«154797_j26414048870608_1_alg».proof.Proof.Gen.KernelIdeal
import proofs.«154797_j26414048870608_1_alg».proof.Proof.Gen.KernelIdeal.Skeleton
import proofs.«154797_j26414048870608_1_alg».proof.Proof.Gen.KernelIdeal.Launch
import proofs.«154797_j26414048870608_1_alg».proof.Proof.Gen.KernelIdeal.Points
import proofs.«154797_j26414048870608_1_alg».proof.Proof.Gen.KernelIdeal.Frame
import proofs.«154797_j26414048870608_1_alg».proof.Proof.Gen.ReferenceIdeal
import proofs.«154797_j26414048870608_1_alg».proof.Proof.Gen.Pre_finite_inputs
import proofs.«154797_j26414048870608_1_alg».proof.Proof.KernelRun
import proofs.«154797_j26414048870608_1_alg».proof.Proof.RefRunPatched
import proofs.«154797_j26414048870608_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- At the ideal instance both programs end with the kernel program's result buffer at its last boundary: the kernel
    by its run through the seven segments, the reference because its composed term is that buffer's. -/
theorem algebraic : Cert.algebraic_KernelIdeal_ReferenceIdeal := by
  intro m ρ m' ρ' _ hagree
  refine ⟨fun c => Cert.KernelIdeal.Gen.W7 m ρ c (Proc.devRef .tc Cert.KernelIdeal.main_v114), ?_, ?_⟩
  · exact (θ_run Cert.KernelIdeal.defs _ _).mono (fun r h c =>
      ⟨h c _ (Cert.KernelIdeal.Gen.mem_uc Cert.KernelIdeal.main_v114 (by decide)),
       (h c _ (Cert.KernelIdeal.Gen.mem_uc Cert.KernelIdeal.main_arg0 (by decide))).trans (Cert.KernelIdeal.Gen.W7_main_arg0 m ρ c),
       (h c _ (Cert.KernelIdeal.Gen.mem_uc Cert.KernelIdeal.main_arg1 (by decide))).trans (Cert.KernelIdeal.Gen.W7_main_arg1 m ρ c),
       (h c _ (Cert.KernelIdeal.Gen.mem_uc Cert.KernelIdeal.main_arg2 (by decide))).trans (Cert.KernelIdeal.Gen.W7_main_arg2 m ρ c),
       (h c _ (Cert.KernelIdeal.Gen.mem_uc Cert.KernelIdeal.main_arg3 (by decide))).trans (Cert.KernelIdeal.Gen.W7_main_arg3 m ρ c),
       (h c _ (Cert.KernelIdeal.Gen.mem_uc Cert.KernelIdeal.main_arg4 (by decide))).trans (Cert.KernelIdeal.Gen.W7_main_arg4 m ρ c),
       (h c _ (Cert.KernelIdeal.Gen.mem_uc Cert.KernelIdeal.main_arg5 (by decide))).trans (Cert.KernelIdeal.Gen.W7_main_arg5 m ρ c),
       (h c _ (Cert.KernelIdeal.Gen.mem_uc Cert.KernelIdeal.main_arg6 (by decide))).trans (Cert.KernelIdeal.Gen.W7_main_arg6 m ρ c),
       (h c _ (Cert.KernelIdeal.Gen.mem_uc Cert.KernelIdeal.main_arg7 (by decide))).trans (Cert.KernelIdeal.Gen.W7_main_arg7 m ρ c)⟩)
      (Cert.KernelIdeal.Run.run_all (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    exact Cert.Bridge.result_eq m ρ m' c h0 h1 h2 h3 h4 h5 h6 h7

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
